-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x128 : Shape := ⟨3, ![8, 1024, 128]⟩
abbrev S8x1024x1024 : Shape := ⟨3, ![8, 1024, 1024]⟩
abbrev S8x1024 : Shape := ⟨2, ![8, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S10x32 : S_.BroadcastsInDim S10x32 (![] : Fin 0 → Fin S10x32.rank)
  reducesTo_S10x32_S_d0_1 : S10x32.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10x32 .f32) (main_arg8 : FVec F S10 .f32) (main_v33 : IVec S_ 1) : IVec S_ 1 :=
  let main_v34 : FVec F S10x32 .f32 := Host.absf main_arg7
  let main_cst_12 : FVec F S_ .f32 := constant S_ .f32 0x7F800000#32
  let main_v35 : FVec F S10x32 .f32 := broadcastInDim S10x32 ![] bcast_S_S10x32 main_cst_12
  let main_v36 : IVec S10x32 1 := cmpf .olt main_v34 main_v35
  let main_c_13 : IVec S_ 1 := constantI S_ 1 1#1
  let main_v37 : IVec S_ 1 := (fun x v => Host.reduce IntOp.andi x v reducesTo_S10x32_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S64 .f32) (main_arg5 : FVec F S32x64 .f32) (main_arg6 : FVec F S32 .f32) (main_arg7 : FVec F S10x32 .f32) (main_arg8 : FVec F S10 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S8x1024x128 .f32) (main_arg1 : FVec F S8x1024x1024 .f32) (main_arg2 : FVec F S8x1024 .f32) (main_arg3 : FVec F S64x128 .f32) (main_arg4 : FVec F S64 .f32) (main_arg5 : FVec F S32x64 .f32) (main_arg6 : FVec F S32 .f32) (main_arg7 : FVec F S10x32 .f32) (main_arg8 : FVec F S10 .f32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S8x1024x128 : Shape := ⟨3, ![8, 1024, 128]⟩
abbrev S8x1024x1024 : Shape := ⟨3, ![8, 1024, 1024]⟩
abbrev S8x1024 : Shape := ⟨2, ![8, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S64x1 : Shape := ⟨2, ![64, 1]⟩
abbrev S32x1 : Shape := ⟨2, ![32, 1]⟩
abbrev S1x10 : Shape := ⟨2, ![1, 10]⟩
abbrev S8x1x1024 : Shape := ⟨3, ![8, 1, 1024]⟩
abbrev S8x1x10 : Shape := ⟨3, ![8, 1, 10]⟩
abbrev S1x1024x128 : Shape := ⟨3, ![1, 1024, 128]⟩
abbrev S1x1024x1024 : Shape := ⟨3, ![1, 1024, 1024]⟩
abbrev S1x1x1024 : Shape := ⟨3, ![1, 1, 1024]⟩
abbrev S1x1x10 : Shape := ⟨3, ![1, 1, 10]⟩
abbrev S1024x128 : Shape := ⟨2, ![1024, 128]⟩
abbrev S1x1024 : Shape := ⟨2, ![1, 1024]⟩
abbrev S1024x1024 : Shape := ⟨2, ![1024, 1024]⟩
abbrev S64x1024 : Shape := ⟨2, ![64, 1024]⟩
abbrev S32x1024 : Shape := ⟨2, ![32, 1024]⟩
abbrev S8x10 : Shape := ⟨2, ![8, 10]⟩

abbrev nBuf : Space → Nat
  | .hbm => 17
  | .vmem => 14
  | .smem => 0
  | _ => 0

abbrev bufTy : (tb : Table) → Fin (tcTables nBuf tb) → BufTy
  | .hbm, ⟨0, _⟩ => ⟨S8x1024x128, .f32⟩
  | .hbm, ⟨1, _⟩ => ⟨S8x1024x1024, .f32⟩
  | .hbm, ⟨2, _⟩ => ⟨S8x1024, .f32⟩
  | .hbm, ⟨3, _⟩ => ⟨S64x128, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S10x32, .f32⟩
  | .hbm, ⟨8, _⟩ => ⟨S10, .f32⟩
  | .hbm, ⟨9, _⟩ => ⟨S64x128, .bf16⟩
  | .hbm, ⟨10, _⟩ => ⟨S32x64, .bf16⟩
  | .hbm, ⟨11, _⟩ => ⟨S64x1, .f32⟩
  | .hbm, ⟨12, _⟩ => ⟨S32x1, .f32⟩
  | .hbm, ⟨13, _⟩ => ⟨S1x10, .f32⟩
  | .hbm, ⟨14, _⟩ => ⟨S8x1x1024, .f32⟩
  | .hbm, ⟨15, _⟩ => ⟨S8x1x10, .f32⟩
  | .hbm, ⟨16, _⟩ => ⟨S8x10, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S64x128, .bf16⟩
  | .local _ .vmem, ⟨7, _⟩ => ⟨S64x1, .f32⟩
  | .local _ .vmem, ⟨8, _⟩ => ⟨S32x64, .bf16⟩
  | .local _ .vmem, ⟨9, _⟩ => ⟨S32x1, .f32⟩
  | .local _ .vmem, ⟨10, _⟩ => ⟨S10x32, .f32⟩
  | .local _ .vmem, ⟨11, _⟩ => ⟨S1x10, .f32⟩
  | .local _ .vmem, ⟨12, _⟩ => ⟨S1x1x10, .f32⟩
  | .local _ .vmem, ⟨13, _⟩ => ⟨S1x1x10, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S64_S64x1 : S64.ShapeCasts S64x1
  shapeCasts_S32_S32x1 : S32.ShapeCasts S32x1
  shapeCasts_S10_S1x10 : S10.ShapeCasts S1x10
  shapeCasts_S8x1024_S8x1x1024 : S8x1024.ShapeCasts S8x1x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  broadcasts_S1x1024_S64x1024 : S1x1024.Broadcasts S64x1024
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x1024 : S32x1.Broadcasts S32x1024
  broadcasts_S1x1024_S32x1024 : S1x1024.Broadcasts S32x1024
  reduces_S32x1024_S32 : S32x1024.Reduces [1] S32
  inb_S10x32_S10x32_0_0 : ∀ a, (![0, 0] : Fin 2 → Nat) a + S10x32.size a ≤ S10x32.size a
  h_S10x32 : 0 < S10x32.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  shapeCasts_S1x10_S1x1x10 : S1x10.ShapeCasts S1x1x10
  shapeCasts_S8x1x10_S8x10 : S8x1x10.ShapeCasts S8x10
  dot_S64x128_S1024x128_S64x1024_1_1_0_0_n_n_wf : DotDims.WF S64x128 S1024x128 S64x1024 [1] [1] [0] [0] [] []
  dot_S64x1024_S1024x1024_S64x1024_1_1_0_0_n_n_wf : DotDims.WF S64x1024 S1024x1024 S64x1024 [1] [1] [0] [0] [] []
  dot_S32x64_S64x1024_S32x1024_1_0_0_1_n_n_wf : DotDims.WF S32x64 S64x1024 S32x1024 [1] [0] [0] [1] [] []
  dot_S32x1024_S1024x1024_S32x1024_1_1_0_0_n_n_wf : DotDims.WF S32x1024 S1024x1024 S32x1024 [1] [1] [0] [0] [] []
  dot_S32x1_S10x32_S1x10_0_1_1_0_n_n_wf : DotDims.WF S32x1 S10x32 S1x10 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x1024x128.size a
  hwx0_0 : ∀ i : grid0.Coords, EltTy.bits .f32 = 32 ∨ (Rect.block (s := S8x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .bf16 = 32 ∨ (Rect.block (s := S32x64) S32x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x32.size a ≤ S10x32.size a
  hwx0_7 : ∀ i : grid0.Coords, EltTy.bits .f32 = 32 ∨ (Rect.block (s := S10x32) S10x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x10.size a ≤ S8x1x10.size a
  hwx0_9 : ∀ i : grid0.Coords, EltTy.bits .f32 = 32 ∨ (Rect.block (s := S8x1x10) S1x1x10.size (cc0_transform_9 i) (hinb0_9 i)).WholeWords (EltTy.packing .f32)

variable [Facts₀]

def dot_S64x128_S1024x128_S64x1024_1_1_0_0_n_n : DotDims S64x128 S1024x128 S64x1024 where
  lhsContracting := [1]
  rhsContracting := [1]
  lhsNonContracting := [0]
  rhsNonContracting := [0]
  lhsBatch := []
  rhsBatch := []
  wf := dot_S64x128_S1024x128_S64x1024_1_1_0_0_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S32x64_S64x1024_S32x1024_1_0_0_1_n_n : DotDims S32x64 S64x1024 S32x1024 where
  lhsContracting := [1]
  rhsContracting := [0]
  lhsNonContracting := [0]
  rhsNonContracting := [1]
  lhsBatch := []
  rhsBatch := []
  wf := dot_S32x64_S64x1024_S32x1024_1_0_0_1_n_n_wf
def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf
def dot_S32x1_S10x32_S1x10_0_1_1_0_n_n : DotDims S32x1 S10x32 S1x10 where
  lhsContracting := [0]
  rhsContracting := [1]
  lhsNonContracting := [1]
  rhsNonContracting := [0]
  lhsBatch := []
  rhsBatch := []
  wf := dot_S32x1_S10x32_S1x10_0_1_1_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x1024x128 : Shape := ⟨3, ![8, 1024, 128]⟩
abbrev S8x1024x1024 : Shape := ⟨3, ![8, 1024, 1024]⟩
abbrev S8x1024 : Shape := ⟨2, ![8, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S8192x128 : Shape := ⟨2, ![8192, 128]⟩
abbrev S8192x1 : Shape := ⟨2, ![8192, 1]⟩
abbrev S128x64 : Shape := ⟨2, ![128, 64]⟩
abbrev S8192x64 : Shape := ⟨2, ![8192, 64]⟩
abbrev S1x64 : Shape := ⟨2, ![1, 64]⟩
abbrev S8x1024x64 : Shape := ⟨3, ![8, 1024, 64]⟩
abbrev S64x32 : Shape := ⟨2, ![64, 32]⟩
abbrev S8192x32 : Shape := ⟨2, ![8192, 32]⟩
abbrev S1x32 : Shape := ⟨2, ![1, 32]⟩
abbrev S8x1024x32 : Shape := ⟨3, ![8, 1024, 32]⟩
abbrev S_ : Shape := ⟨0, ![]⟩
abbrev S8x32 : Shape := ⟨2, ![8, 32]⟩
abbrev S32x10 : Shape := ⟨2, ![32, 10]⟩
abbrev S8x10 : Shape := ⟨2, ![8, 10]⟩
abbrev S1x10 : Shape := ⟨2, ![1, 10]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x1024, .f32⟩
  | .hbm, ⟨2, _⟩ => ⟨S8x1024, .f32⟩
  | .hbm, ⟨3, _⟩ => ⟨S64x128, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S10x32, .f32⟩
  | .hbm, ⟨8, _⟩ => ⟨S10, .f32⟩
  | .hbm, ⟨9, _⟩ => ⟨S8192x128, .f32⟩
  | .hbm, ⟨10, _⟩ => ⟨S8192x1, .f32⟩
  | .hbm, ⟨11, _⟩ => ⟨S8x1024x128, .f32⟩
  | .hbm, ⟨12, _⟩ => ⟨S8x1024x128, .f32⟩
  | .hbm, ⟨13, _⟩ => ⟨S8192x128, .f32⟩
  | .hbm, ⟨14, _⟩ => ⟨S128x64, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S8x1024x64, .f32⟩
  | .hbm, ⟨22, _⟩ => ⟨S8x1024x64, .f32⟩
  | .hbm, ⟨23, _⟩ => ⟨S8192x64, .f32⟩
  | .hbm, ⟨24, _⟩ => ⟨S64x32, .f32⟩
  | .hbm, ⟨25, _⟩ => ⟨S8192x32, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8x1024x32, .f32⟩
  | .hbm, ⟨32, _⟩ => ⟨S_, .f32⟩
  | .hbm, ⟨33, _⟩ => ⟨S8x32, .f32⟩
  | .hbm, ⟨34, _⟩ => ⟨S32x10, .f32⟩
  | .hbm, ⟨35, _⟩ => ⟨S8x10, .f32⟩
  | .hbm, ⟨36, _⟩ => ⟨S1x10, .f32⟩
  | .hbm, ⟨37, _⟩ => ⟨S8x10, .f32⟩
  | .hbm, ⟨38, _⟩ => ⟨S8x10, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S8x1024x128_S8192x128 : S8x1024x128.ShapeCasts S8192x128
  shapeCasts_S8x1024_S8192x1 : S8x1024.ShapeCasts S8192x1
  shapeCasts_S8192x128_S8x1024x128 : S8192x128.ShapeCasts S8x1024x128
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S8192x1_S8192x64_0_1 : S8192x1.BroadcastsInDim S8192x64 (![0, 1] : Fin 2 → Fin S8192x64.rank)
  shapeCasts_S8192x64_S8x1024x64 : S8192x64.ShapeCasts S8x1024x64
  shapeCasts_S8x1024x64_S8192x64 : S8x1024x64.ShapeCasts S8192x64
  transposes_S32x64_S64x32_1_0 : S32x64.Transposes [1, 0] S64x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S8192x1_S8192x32_0_1 : S8192x1.BroadcastsInDim S8192x32 (![0, 1] : Fin 2 → Fin S8192x32.rank)
  shapeCasts_S8192x32_S8x1024x32 : S8192x32.ShapeCasts S8x1024x32
  reducesTo_S8x1024x32_S8x32_d1 : S8x1024x32.ReducesTo [1] S8x32
  h_S_ : 0 < S_.numel
  transposes_S10x32_S32x10_1_0 : S10x32.Transposes [1, 0] S32x10
  bcast_S10_S1x10_1 : S10.BroadcastsInDim S1x10 (![1] : Fin 1 → Fin S1x10.rank)
  bcast_S1x10_S8x10_0_1 : S1x10.BroadcastsInDim S8x10 (![0, 1] : Fin 2 → Fin S8x10.rank)
  dot_S8x1024x1024_S8x1024x128_S8x1024x128_2_1_1_2_0_0_wf : DotDims.WF S8x1024x1024 S8x1024x128 S8x1024x128 [2] [1] [1] [2] [0] [0]
  dot_S8192x128_S128x64_S8192x64_1_0_0_1_n_n_wf : DotDims.WF S8192x128 S128x64 S8192x64 [1] [0] [0] [1] [] []
  dot_S8x1024x1024_S8x1024x64_S8x1024x64_2_1_1_2_0_0_wf : DotDims.WF S8x1024x1024 S8x1024x64 S8x1024x64 [2] [1] [1] [2] [0] [0]
  dot_S8192x64_S64x32_S8192x32_1_0_0_1_n_n_wf : DotDims.WF S8192x64 S64x32 S8192x32 [1] [0] [0] [1] [] []
  dot_S8x32_S32x10_S8x10_1_0_0_1_n_n_wf : DotDims.WF S8x32 S32x10 S8x10 [1] [0] [0] [1] [] []

variable [Facts₀]

def dot_S8x1024x1024_S8x1024x128_S8x1024x128_2_1_1_2_0_0 : DotDims S8x1024x1024 S8x1024x128 S8x1024x128 where
  lhsContracting := [2]
  rhsContracting := [1]
  lhsNonContracting := [1]
  rhsNonContracting := [2]
  lhsBatch := [0]
  rhsBatch := [0]
  wf := dot_S8x1024x1024_S8x1024x128_S8x1024x128_2_1_1_2_0_0_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8x1024x1024_S8x1024x64_S8x1024x64_2_1_1_2_0_0 : DotDims S8x1024x1024 S8x1024x64 S8x1024x64 where
  lhsContracting := [2]
  rhsContracting := [1]
  lhsNonContracting := [1]
  rhsNonContracting := [2]
  lhsBatch := [0]
  rhsBatch := [0]
  wf := dot_S8x1024x1024_S8x1024x64_S8x1024x64_2_1_1_2_0_0_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8x32_S32x10_S8x10_1_0_0_1_n_n : DotDims S8x32 S32x10 S8x10 where
  lhsContracting := [1]
  rhsContracting := [0]
  lhsNonContracting := [0]
  rhsNonContracting := [1]
  lhsBatch := []
  rhsBatch := []
  wf := dot_S8x32_S32x10_S8x10_1_0_0_1_n_n_wf

class Facts : Prop extends Facts₀ where

variable [Facts]
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.Law.lean ====
/-
  Two layers of a graph convolution, a maximum over the nodes and a final linear map, written in two orders.

  One layer takes node features `x j f`, an adjacency matrix `a n j`, weights `W h f`, a bias `bias h` and a node
  mask `msk n`. Projecting first and aggregating after gives
      ((Σ_j (Σ_f W h f · x j f) · a n j) + bias h) · msk n,
  aggregating first and projecting after gives
      ((Σ_f (Σ_j a n j · x j f) · W h f) + bias h) · msk n.
  Both are the double sum of W h f · x j f · a n j taken in the two possible orders, so they agree whenever every
  entry is a real number; on the extended reals a product does not distribute over a sum that holds both infinities,
  which is why the entries are asked to be real. A layer of real entries has real entries, so the argument repeats
  for the second layer, and what follows the two layers (the maximum over the nodes, the last linear map) is the same
  expression of the layers' output on both sides.
-/
import proofs.«179569_g65240553226756_cont_9to1_m_603_26_alg».proof.Proof.LibRealSum

noncomputable section

open scoped BigOperators

namespace Cert.Gcn

open Cert.RealSum

/-- The image of a finite sum of real numbers is the sum of the images. -/
theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- Over the real numbers: both sides are the double sum of `w f * x j f * a j`. -/
theorem exchange_real {ι κ : Type} [Fintype ι] [Fintype κ] (w : κ → ℝ) (x : ι → κ → ℝ) (a : ι → ℝ) :
    ∑ j, (∑ f, w f * x j f) * a j = ∑ f, (∑ j, a j * x j f) * w f := by
  simp only [Finset.sum_mul]
  rw [Finset.sum_comm]
  refine Finset.sum_congr rfl fun _ _ => Finset.sum_congr rfl fun _ _ => ?_
  ring

/-- THE EXCHANGE LAW on the extended reals, for real entries: project then aggregate is aggregate then project. -/
theorem exchange {ι κ : Type} [Fintype ι] [Fintype κ] (w : κ → EReal) (x : ι → κ → EReal) (a : ι → EReal)
    (hw : ∀ f, IsReal (w f)) (hx : ∀ j f, IsReal (x j f)) (ha : ∀ j, IsReal (a j)) :
    ∑ j, (∑ f, w f * x j f) * a j = ∑ f, (∑ j, a j * x j f) * w f := by
  choose w' hw' using hw
  choose x' hx' using hx
  choose a' ha' using ha
  have hL : ∑ j, (∑ f, w f * x j f) * a j = ((∑ j, (∑ f, w' f * x' j f) * a' j : ℝ) : EReal) := by
    rw [coe_sum]
    refine Finset.sum_congr rfl fun j _ => ?_
    rw [EReal.coe_mul, coe_sum, ha' j]
    congr 1
    refine Finset.sum_congr rfl fun f _ => ?_
    rw [EReal.coe_mul, hw' f, hx' j f]
  have hR : ∑ f, (∑ j, a j * x j f) * w f = ((∑ f, (∑ j, a' j * x' j f) * w' f : ℝ) : EReal) := by
    rw [coe_sum]
    refine Finset.sum_congr rfl fun f _ => ?_
    rw [EReal.coe_mul, coe_sum, hw' f]
    congr 1
    refine Finset.sum_congr rfl fun j _ => ?_
    rw [EReal.coe_mul, ha' j, hx' j f]
  rw [hL, hR, exchange_real w' x' a']

variable {N D H : ℕ}

/-- One layer, projecting first: entry (h, n) of the features-major result. -/
def layerK (W : Fin H → Fin D → EReal) (bias : Fin H → EReal) (x : Fin N → Fin D → EReal)
    (a : Fin N → Fin N → EReal) (msk : Fin N → EReal) (h : Fin H) (n : Fin N) : EReal :=
  ((∑ j, (∑ f, W h f * x j f) * a n j) + bias h) * msk n

/-- One layer, aggregating first: entry (n, h) of the nodes-major result. -/
def layerR (W : Fin H → Fin D → EReal) (bias : Fin H → EReal) (x : Fin N → Fin D → EReal)
    (a : Fin N → Fin N → EReal) (msk : Fin N → EReal) (n : Fin N) (h : Fin H) : EReal :=
  ((∑ f, (∑ j, a n j * x j f) * W h f) + bias h) * msk n

/-- The two orders of one layer agree on real weights, features and adjacency (bias and mask may be anything). -/
theorem layerK_eq_layerR (W : Fin H → Fin D → EReal) (bias : Fin H → EReal) (x : Fin N → Fin D → EReal)
    (a : Fin N → Fin N → EReal) (msk : Fin N → EReal) (h : Fin H) (n : Fin N)
    (hW : ∀ h f, IsReal (W h f)) (hx : ∀ j f, IsReal (x j f)) (ha : ∀ n j, IsReal (a n j)) :
    layerK W bias x a msk h n = layerR W bias x a msk n h := by
  unfold layerK layerR
  rw [exchange (W h) x (a n) (hW h) hx (ha n)]

/-- A layer of real entries has real entries. -/
theorem layerR_real (W : Fin H → Fin D → EReal) (bias : Fin H → EReal) (x : Fin N → Fin D → EReal)
    (a : Fin N → Fin N → EReal) (msk : Fin N → EReal) (n : Fin N) (h : Fin H)
    (hW : ∀ h f, IsReal (W h f)) (hb : ∀ h, IsReal (bias h)) (hx : ∀ j f, IsReal (x j f))
    (ha : ∀ n j, IsReal (a n j)) (hm : ∀ n, IsReal (msk n)) : IsReal (layerR W bias x a msk n h) :=
  ((isReal_sum _ _ fun f _ => (isReal_sum _ _ fun j _ => (ha n j).mul (hx j f)).mul (hW h f)).add (hb h)).mul (hm n)

variable {H2 O : ℕ}

/-- The whole network on one graph, projecting first in both layers: the maximum over the nodes of the second layer
    (folded from `neg`), then the last linear map. -/
def netK (W1 : Fin H → Fin D → EReal) (b1 : Fin H → EReal) (W2 : Fin H2 → Fin H → EReal) (b2 : Fin H2 → EReal)
    (Wfc : Fin O → Fin H2 → EReal) (bfc : Fin O → EReal) (x : Fin N → Fin D → EReal) (a : Fin N → Fin N → EReal)
    (msk : Fin N → EReal) (neg : EReal) (o : Fin O) : EReal :=
  (∑ k, ((Finset.univ : Finset (Fin N)).fold max neg fun n =>
      layerK W2 b2 (fun j h => layerK W1 b1 x a msk h j) a msk k n) * Wfc o k) + bfc o

/-- The whole network on one graph, aggregating first in both layers. -/
def netR (W1 : Fin H → Fin D → EReal) (b1 : Fin H → EReal) (W2 : Fin H2 → Fin H → EReal) (b2 : Fin H2 → EReal)
    (Wfc : Fin O → Fin H2 → EReal) (bfc : Fin O → EReal) (x : Fin N → Fin D → EReal) (a : Fin N → Fin N → EReal)
    (msk : Fin N → EReal) (neg : EReal) (o : Fin O) : EReal :=
  (∑ k, ((Finset.univ : Finset (Fin N)).fold max neg fun n =>
      layerR W2 b2 (fun j h => layerR W1 b1 x a msk j h) a msk n k) * Wfc o k) + bfc o

/-- The two orders of the whole network agree when the features, the adjacency, the mask, both weight matrices and the
    first bias are real (the second bias, the last linear map and the fold's start may be anything). -/
theorem netK_eq_netR (W1 : Fin H → Fin D → EReal) (b1 : Fin H → EReal) (W2 : Fin H2 → Fin H → EReal)
    (b2 : Fin H2 → EReal) (Wfc : Fin O → Fin H2 → EReal) (bfc : Fin O → EReal) (x : Fin N → Fin D → EReal)
    (a : Fin N → Fin N → EReal) (msk : Fin N → EReal) (neg : EReal) (o : Fin O)
    (hW1 : ∀ h f, IsReal (W1 h f)) (hb1 : ∀ h, IsReal (b1 h)) (hW2 : ∀ k h, IsReal (W2 k h))
    (hx : ∀ j f, IsReal (x j f)) (ha : ∀ n j, IsReal (a n j)) (hm : ∀ n, IsReal (msk n)) :
    netK W1 b1 W2 b2 Wfc bfc x a msk neg o = netR W1 b1 W2 b2 Wfc bfc x a msk neg o := by
  unfold netK netR
  have e1 : (fun (j : Fin N) (h : Fin H) => layerK W1 b1 x a msk h j) = fun j h => layerR W1 b1 x a msk j h :=
    funext fun j => funext fun h => layerK_eq_layerR W1 b1 x a msk h j hW1 hx ha
  rw [e1]
  have e2 : ∀ (k : Fin H2) (n : Fin N),
      layerK W2 b2 (fun j h => layerR W1 b1 x a msk j h) a msk k n
        = layerR W2 b2 (fun j h => layerR W1 b1 x a msk j h) a msk n k :=
    fun k n => layerK_eq_layerR W2 b2 _ a msk k n hW2
      (fun j h => layerR_real W1 b1 x a msk j h hW1 hb1 hx ha hm) ha
  simp only [e2]

end Cert.Gcn

end
-- ==== Proof.Spec.lean ====
/-
  The specification: what both programs compute, as one function of the nine argument arrays.

  For graph b of the batch, with features X[b] (1024 nodes × 128), adjacency A[b] (1024 × 1024) and node mask M[b],
  the result row is  max over nodes of layer₂(layer₁(X[b])) · Wfcᵀ + bfc, where a layer is aggregation by A[b],
  a linear map, a bias and the mask. `refAt` writes each layer aggregating first (the reference's order), `kerAt`
  projecting first (the kernel's order); they agree on real inputs by the exchange law.
-/
import proofs.«179569_g65240553226756_cont_9to1_m_603_26_alg».proof.Proof.Law
import Idealize.ShloMosaic.Lib.ValueIdx
import Idealize.ShloMosaic.PureOps.Ideal

noncomputable section

namespace Cert.Gcn

open Idealize.ShloMosaic Idealize.ShloMosaic.ValueIdx Cert.RealSum

/-- Minus infinity, as the single-precision word both programs start their maximum from. -/
abbrev negInf : EReal := Ideal.ofBits .f32 0xFF800000#32

section
variable (X : (⟨3, ![8, 1024, 128]⟩ : Shape).Idx → EReal) (A : (⟨3, ![8, 1024, 1024]⟩ : Shape).Idx → EReal)
  (M : (⟨2, ![8, 1024]⟩ : Shape).Idx → EReal) (W1 : (⟨2, ![64, 128]⟩ : Shape).Idx → EReal)
  (b1 : (⟨1, ![64]⟩ : Shape).Idx → EReal) (W2 : (⟨2, ![32, 64]⟩ : Shape).Idx → EReal)
  (b2 : (⟨1, ![32]⟩ : Shape).Idx → EReal) (Wfc : (⟨2, ![10, 32]⟩ : Shape).Idx → EReal)
  (bfc : (⟨1, ![10]⟩ : Shape).Idx → EReal)

/-- Entry (b, o) of the result, each layer projecting first. -/
def kerAt (b : Fin 8) (o : Fin 10) : EReal :=
  netK (fun (h : Fin 64) (f : Fin 128) => W1 (ix2 h f)) (fun (h : Fin 64) => b1 (ix1 h))
    (fun (k : Fin 32) (h : Fin 64) => W2 (ix2 k h)) (fun (k : Fin 32) => b2 (ix1 k))
    (fun (o : Fin 10) (k : Fin 32) => Wfc (ix2 o k)) (fun (o : Fin 10) => bfc (ix1 o))
    (fun (j : Fin 1024) (f : Fin 128) => X (ix3 b j f)) (fun (n j : Fin 1024) => A (ix3 b n j))
    (fun (n : Fin 1024) => M (ix2 b n)) negInf o

/-- Entry (b, o) of the result, each layer aggregating first. -/
def refAt (b : Fin 8) (o : Fin 10) : EReal :=
  netR (fun (h : Fin 64) (f : Fin 128) => W1 (ix2 h f)) (fun (h : Fin 64) => b1 (ix1 h))
    (fun (k : Fin 32) (h : Fin 64) => W2 (ix2 k h)) (fun (k : Fin 32) => b2 (ix1 k))
    (fun (o : Fin 10) (k : Fin 32) => Wfc (ix2 o k)) (fun (o : Fin 10) => bfc (ix1 o))
    (fun (j : Fin 1024) (f : Fin 128) => X (ix3 b j f)) (fun (n j : Fin 1024) => A (ix3 b n j))
    (fun (n : Fin 1024) => M (ix2 b n)) negInf o

/-- The two orders agree when the features, the adjacency, the mask, both weight matrices and the first bias are real. -/
theorem kerAt_eq_refAt (hX : ∀ i, IsReal (X i)) (hA : ∀ i, IsReal (A i)) (hM : ∀ i, IsReal (M i))
    (hW1 : ∀ i, IsReal (W1 i)) (hb1 : ∀ i, IsReal (b1 i)) (hW2 : ∀ i, IsReal (W2 i)) (b : Fin 8) (o : Fin 10) :
    kerAt X A M W1 b1 W2 b2 Wfc bfc b o = refAt X A M W1 b1 W2 b2 Wfc bfc b o :=
  netK_eq_netR _ _ _ _ _ _ _ _ _ _ _ (fun _ _ => hW1 _) (fun _ => hb1 _) (fun _ _ => hW2 _) (fun _ _ => hX _)
    (fun _ _ => hA _) (fun _ => hM _)

/-- THE SPECIFICATION: the [8, 10] result array. -/
def spec : (⟨2, ![8, 10]⟩ : Shape).Idx → EReal := fun i => refAt X A M W1 b1 W2 b2 Wfc bfc (i 0) (i 1)

end

end Cert.Gcn

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.Finite.lean ====
/-
  The precondition read back: where the printed "every float input is finite" test answers 1, every entry of the
  features, the adjacency, the mask, both weight matrices and the first bias is a real number.

  The test is a conjunction, nested to the left, of one "all entries pass |x| < +inf" per argument. A conjunction
  of truth values that is 1 has both conjuncts 1, so the nest is peeled one argument at a time; each conjunct then
  gives its argument's entries by the array fact about that test.
-/
import proofs.«179569_g65240553226756_cont_9to1_m_603_26_alg».proof.Pre_finite_inputs
import proofs.«179569_g65240553226756_cont_9to1_m_603_26_alg».proof.Proof.LibFiniteAll
import proofs.«179569_g65240553226756_cont_9to1_m_603_26_alg».proof.Proof.LibRealSum
import Idealize.ShloMosaic.Lib.ValueIdx
import Idealize.ShloMosaic.Lib.Affine

namespace Cert.Gcn.Finite

open Idealize.ShloMosaic Cert.Pre_finite_inputs Cert.RealSum

/-- The scalar shape has one index. -/
instance : Subsingleton S_.Idx := ⟨fun a b => funext fun d => d.elim0⟩

/-- Under the precondition the six arrays the exchange law reads hold real numbers. -/
theorem reals [Cert.Pre_finite_inputs.Facts] (x0 : FVec Ideal S8x1024x128 .f32) (x1 : FVec Ideal S8x1024x1024 .f32)
    (x2 : FVec Ideal S8x1024 .f32) (x3 : FVec Ideal S64x128 .f32) (x4 : FVec Ideal S64 .f32)
    (x5 : FVec Ideal S32x64 .f32) (x6 : FVec Ideal S32 .f32) (x7 : FVec Ideal S10x32 .f32) (x8 : FVec Ideal S10 .f32)
    (h : fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  have h0 := congrFun h ValueIdx.ix0
  dsimp only [fn, fn_part1, fn_part2] at h0
  obtain ⟨h38, -⟩ := IntOp.andi_eq_one.mp h0
  obtain ⟨h33, -⟩ := IntOp.andi_eq_one.mp h38
  obtain ⟨h28, -⟩ := IntOp.andi_eq_one.mp h33
  obtain ⟨h23, h27⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨fun i => Cert.FiniteAll.all_real_of_reduce_and x0 _ _ _ _ _ _ h3 i,
    fun i => Cert.FiniteAll.all_real_of_reduce_and x1 _ _ _ _ _ _ h7 i,
    fun i => Cert.FiniteAll.all_real_of_reduce_and x2 _ _ _ _ _ _ h12 i,
    fun i => Cert.FiniteAll.all_real_of_reduce_and x3 _ _ _ _ _ _ h17 i,
    fun i => Cert.FiniteAll.all_real_of_reduce_and x4 _ _ _ _ _ _ h22 i,
    fun i => Cert.FiniteAll.all_real_of_reduce_and x5 _ _ _ _ _ _ h27 i⟩

end Cert.Gcn.Finite
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDotTN.lean ====
/-
  A matrix product whose LEFT operand is read transposed, read at an index, on the extended reals.

  For dimension numbers that contract the left operand's FIRST axis against the right operand's SECOND
  axis, with no batch axes (the transpose of a `K×M` matrix times the transpose of an `N×K` matrix),
  entry `(p, c)` of the product is `Σ_{q < K} l[q, p] · r[c, q]`: the result's row index runs over the
  left operand's columns, its column index over the right operand's rows, and no transpose is ever
  formed. The library states a product as a sum over the contraction shape's multi-indices; here that
  sum is re-indexed by the one contracted coordinate, once, for every record of this form and every
  extent.
-/
import Idealize.ShloMosaic.PureOps.Ideal.Laws
import Idealize.ShloMosaic.Lib.ValueIdx

noncomputable section

open scoped BigOperators

namespace Cert.DotTN

open Idealize.ShloMosaic Idealize.ShloMosaic.ValueIdx

variable {M K N : Nat} (d : DotDims ⟨2, ![K, M]⟩ ⟨2, ![N, K]⟩ ⟨2, ![M, N]⟩)

/-- The dimension numbers of `lᵀ · rᵀ`: contract left axis 0 with right axis 1, keep left axis 1 then
    right axis 0, no batch axes. -/
structure IsTN : Prop where
  lc : d.lhsContracting = [0]
  rc : d.rhsContracting = [1]
  ln : d.lhsNonContracting = [1]
  rn : d.rhsNonContracting = [0]
  lb : d.lhsBatch = []
  rb : d.rhsBatch = []

variable {d}

/-- The contraction shape has one axis. -/
theorem contr_rank (h : IsTN d) : d.contr.rank = 1 := by rw [d.rank_contr, h.lc]; rfl

/-- That axis has the shared extent `K`. -/
theorem contr_size (h : IsTN d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand's COLUMN is the result's row. -/
theorem lhs_col (h : IsTN d) (j : (⟨2, ![M, N]⟩ : Shape).Idx) (k : d.contr.Idx) : (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsTN d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate: the first
    coordinate of the left operand, the second of the right. -/
theorem sum_contr (h : IsTN d) (l : (⟨2, ![K, M]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 q (j 0)) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 q (j 0) := funext fun a => Fin.ext (by
    match a with
    | ⟨0, _⟩ => exact (d.lhsIdx_val_of_single h.lc j _).trans hq
    | ⟨1, _⟩ => exact lhs_col h j _)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` of this form into a zero accumulator, at entry `(p, c)`. -/
theorem matmul_zero_apply (h : IsTN d) (prec : Option ContractPrecision) {φ₁ φ₂ : FTy}
    (l : FVec Ideal ⟨2, ![K, M]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 q p) * r (ix2 c q) :=
  (Ideal.matmul_constant_zero_apply d prec l r (ix2 p c)).trans (sum_contr h l r (ix2 p c))

/-- The host's `dot_general` of this form, at entry `(p, c)`. -/
theorem dotGeneral_apply (h : IsTN d) (prec : Option ContractPrecision) {φ₁ φ₂ : FTy}
    (l : FVec Ideal ⟨2, ![K, M]⟩ φ₁) (r : FVec Ideal ⟨2, ![N, K]⟩ φ₂) (p : Fin M) (c : Fin N) :
    Host.dotGeneral d prec l r (ix2 p c) = ∑ q : Fin K, l (ix2 q p) * r (ix2 c q) :=
  (Ideal.dotGeneral_apply d prec .single l r (ix2 p c)).trans (sum_contr h l r (ix2 p c))

end Cert.DotTN

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibDropUnit.lean ====
/-
  A leading axis of extent one cast away, read at an index.

  A block of shape [1, A, B] reshaped to [A, B] keeps its elements in row-major order, so entry `(p, q)` of
  the reshaped block is entry `(0, p, q)` of the block. Any extents, any element type, no program needed.
-/
import Idealize.ShloMosaic.Lib.Pipeline.Value
import Idealize.ShloMosaic.Lib.ValueIdx

namespace Cert.DropUnit

open Idealize.ShloMosaic Idealize.ShloMosaic.ValueIdx

/-- An array of shape [1, A, B] with the unit axis cast away reads, at `(p, q)`, the array at `(0, p, q)`. -/
theorem dropUnit_apply {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 0 p q) := by
  refine shapeCast_apply x h (ix2 p q) (ix3 0 p q) ?_
  rw [Shape.rowMajor_val_three, Shape.rowMajor_val_two]
  show ((0 : Fin 1).val * A + p.val) * B + q.val = p.val * B + q.val
  simp

end Cert.DropUnit
-- ==== Proof.LibAddUnit.lean ====
/-
  A leading axis of extent one added, read at an index.

  An array of shape [A, B] reshaped to [1, A, B] keeps its elements in row-major order, so entry `(0, p, q)` of the
  reshaped block is entry `(p, q)` of the array. Any extents, any element type, no program needed.
-/
import Idealize.ShloMosaic.Lib.Pipeline.Value
import Idealize.ShloMosaic.Lib.ValueIdx

namespace Cert.AddUnit

open Idealize.ShloMosaic Idealize.ShloMosaic.ValueIdx

/-- An array of shape [A, B] given a leading unit axis reads, at `(u, p, q)`, the array at `(p, q)`. -/
theorem addUnit_apply {α : Type} {A B : Nat} (x : (⟨2, ![A, B]⟩ : Shape).Idx → α)
    (h : (⟨2, ![A, B]⟩ : Shape).ShapeCasts ⟨3, ![1, A, B]⟩) (u : Fin 1) (p : Fin A) (q : Fin B) :
    shapeCast ⟨3, ![1, A, B]⟩ x h (ix3 u p q) = x (ix2 p q) := by
  refine shapeCast_apply x h (ix3 u p q) (ix2 p q) ?_
  rw [Shape.rowMajor_val_three, Shape.rowMajor_val_two]
  show p.val * B + q.val = (u.val * A + p.val) * B + q.val
  have hu : u.val = 0 := by omega
  rw [hu]
  simp

end Cert.AddUnit
-- ==== Proof.Body.lean ====
/-
  The kernel's arithmetic on one graph, read at an index.

  The body's value is restated as a composition of named stages — W1·Xᵀ, the first layer, the second layer, the
  maximum over the nodes with the last linear map — and each stage is read at one entry: a product into a zero
  accumulator is the sum over the contracted coordinate, a change of float format is the identity, a bias column
  [h, 1] repeats across the nodes, the mask row [1, n] repeats down the features, and a maximum along the nodes is a
  fold of max from the starting word's value. Put together, entry (0, o) of the stored block is `netK` of the
  loaded blocks: the network with each layer projecting first.
-/
import proofs.«179569_g65240553226756_cont_9to1_m_603_26_alg».proof.Proof.Gen.KernelIdeal.Skeleton
import proofs.«179569_g65240553226756_cont_9to1_m_603_26_alg».proof.Proof.Law
import proofs.«179569_g65240553226756_cont_9to1_m_603_26_alg».proof.Proof.Spec
import proofs.«179569_g65240553226756_cont_9to1_m_603_26_alg».proof.Proof.LibDotNT
import proofs.«179569_g65240553226756_cont_9to1_m_603_26_alg».proof.Proof.LibPlainDot
import proofs.«179569_g65240553226756_cont_9to1_m_603_26_alg».proof.Proof.LibDotTN
import proofs.«179569_g65240553226756_cont_9to1_m_603_26_alg».proof.Proof.LibAxisFold
import proofs.«179569_g65240553226756_cont_9to1_m_603_26_alg».proof.Proof.LibColumn
import proofs.«179569_g65240553226756_cont_9to1_m_603_26_alg».proof.Proof.LibDropUnit
import proofs.«179569_g65240553226756_cont_9to1_m_603_26_alg».proof.Proof.LibAddUnit
import Idealize.ShloMosaic.Lib.ValueLayout
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen Cert.Gcn

section Stages

variable {F : FTy → Type} [FloatOps F]

/-- W1 · Xᵀ: the projected features, features-major. -/
def proj1 (v0 : Vec F S1x1024x128 .f32) (v6 : Vec F S64x128 .bf16) : FVec F S64x1024 .f32 :=
  matmul dot_S64x128_S1024x128_S64x1024_1_1_0_0_n_n none
    (shapeCast S64x128 v6 shapeCasts_S64x128_S64x128 : FVec F S64x128 .bf16)
    (truncf .bf16 (shapeCast S1024x128 v0 shapeCasts_S1x1024x128_S1024x128 : FVec F S1024x128 .f32) bitsLt_bf16_f32 : FVec F S1024x128 .bf16)
    (constant S64x1024 .f32 0x00000000#32)

/-- The first layer: aggregate the projected features, add the bias column, multiply by the mask row. -/
def layer1 (v0 : Vec F S1x1024x128 .f32) (v2 : Vec F S1x1x1024 .f32) (v4 : Vec F S1x1024x1024 .f32)
    (v6 : Vec F S64x128 .bf16) (v12 : Vec F S64x1 .f32) : FVec F S64x1024 .f32 :=
  mulf
    (addf
      (matmul dot_S64x1024_S1024x1024_S64x1024_1_1_0_0_n_n none
        (truncf .bf16 (proj1 v0 v6) bitsLt_bf16_f32 : FVec F S64x1024 .bf16)
        (shapeCast S1024x1024 v4 shapeCasts_S1x1024x1024_S1024x1024 : FVec F S1024x1024 .f32)
        (constant S64x1024 .f32 0x00000000#32))
      (broadcastTo S64x1024 (shapeCast S64x1 v12 shapeCasts_S64x1_S64x1 : FVec F S64x1 .f32) broadcasts_S64x1_S64x1024))
    (broadcastTo S64x1024 (shapeCast S1x1024 v2 shapeCasts_S1x1x1024_S1x1024 : FVec F S1x1024 .f32) broadcasts_S1x1024_S64x1024)

/-- The second layer, on the first layer's result. -/
def layer2 (v0 : Vec F S1x1024x128 .f32) (v2 : Vec F S1x1x1024 .f32) (v4 : Vec F S1x1024x1024 .f32)
    (v6 : Vec F S64x128 .bf16) (v12 : Vec F S64x1 .f32) (v18 : Vec F S32x64 .bf16) (v24 : Vec F S32x1 .f32) :
    FVec F S32x1024 .f32 :=
  mulf
    (addf
      (matmul dot_S32x1024_S1024x1024_S32x1024_1_1_0_0_n_n none
        (truncf .bf16
          (matmul dot_S32x64_S64x1024_S32x1024_1_0_0_1_n_n none
            (shapeCast S32x64 v18 shapeCasts_S32x64_S32x64 : FVec F S32x64 .bf16)
            (truncf .bf16 (layer1 v0 v2 v4 v6 v12) bitsLt_bf16_f32 : FVec F S64x1024 .bf16)
            (constant S32x1024 .f32 0x00000000#32) : FVec F S32x1024 .f32)
          bitsLt_bf16_f32 : FVec F S32x1024 .bf16)
        (shapeCast S1024x1024 v4 shapeCasts_S1x1024x1024_S1024x1024 : FVec F S1024x1024 .f32)
        (constant S32x1024 .f32 0x00000000#32))
      (broadcastTo S32x1024 (shapeCast S32x1 v24 shapeCasts_S32x1_S32x1 : FVec F S32x1 .f32) broadcasts_S32x1_S32x1024))
    (broadcastTo S32x1024 (shapeCast S1x1024 v2 shapeCasts_S1x1x1024_S1x1024 : FVec F S1x1024 .f32) broadcasts_S1x1024_S32x1024)

/-- The maximum over the nodes as a column, times Wfcᵀ. -/
def head (v0 : Vec F S1x1024x128 .f32) (v2 : Vec F S1x1x1024 .f32) (v4 : Vec F S1x1024x1024 .f32)
    (v6 : Vec F S64x128 .bf16) (v12 : Vec F S64x1 .f32) (v18 : Vec F S32x64 .bf16) (v24 : Vec F S32x1 .f32)
    (v32 : Vec F S10x32 .f32) : FVec F S1x10 .f32 :=
  matmul dot_S32x1_S10x32_S1x10_0_1_1_0_n_n none
    (shapeCast S32x1
      (multiReduction .maximumf [1] S32 (layer2 v0 v2 v4 v6 v12 v18 v24) 0xFF800000#32 reduces_S32x1024_S32 (.inl rfl) rfl : FVec F S32 .f32)
      shapeCasts_S32_S32x1 : FVec F S32x1 .f32)
    v32 (constant S1x10 .f32 0x00000000#32)

/-- The body's first payload is the composition of the stages. -/
theorem pay2_eq (v0 : Vec F S1x1024x128 .f32) (v2 : Vec F S1x1x1024 .f32) (v4 : Vec F S1x1024x1024 .f32)
    (v6 : Vec F S64x128 .bf16) (v12 : Vec F S64x1 .f32) (v18 : Vec F S32x64 .bf16) (v24 : Vec F S32x1 .f32)
    (v32 : Vec F S10x32 .f32) : k0_pay2 v0 v2 v4 v6 v12 v18 v24 v32 = head v0 v2 v4 v6 v12 v18 v24 v32 := rfl

/-- The stored value: the head plus the last bias, with a leading unit axis. -/
theorem pay1_eq (v33 : FVec F S1x10 .f32) (v34 : Vec F S1x10 .f32) :
    k0_pay1 v33 v34
      = shapeCast S1x1x10 (addf v33 (shapeCast S1x10 v34 shapeCasts_S1x10_S1x10 : FVec F S1x10 .f32) : FVec F S1x10 .f32) shapeCasts_S1x10_S1x1x10 := rfl

end Stages

/-! ## The dimension numbers of the five products -/

theorem nt1 : DotNT.IsNT dot_S64x128_S1024x128_S64x1024_1_1_0_0_n_n := ⟨rfl, rfl, rfl, rfl, rfl, rfl⟩
theorem nt2 : DotNT.IsNT dot_S64x1024_S1024x1024_S64x1024_1_1_0_0_n_n := ⟨rfl, rfl, rfl, rfl, rfl, rfl⟩
theorem pl3 : PlainDot.IsPlain dot_S32x64_S64x1024_S32x1024_1_0_0_1_n_n := ⟨rfl, rfl, rfl, rfl, rfl, rfl⟩
theorem nt4 : DotNT.IsNT dot_S32x1024_S1024x1024_S32x1024_1_1_0_0_n_n := ⟨rfl, rfl, rfl, rfl, rfl, rfl⟩
theorem tn5 : DotTN.IsTN dot_S32x1_S10x32_S1x10_0_1_1_0_n_n := ⟨rfl, rfl, rfl, rfl, rfl, rfl⟩

/-! ## Each stage at an entry -/

section Read

variable (v0 : Vec Ideal S1x1024x128 .f32) (v2 : Vec Ideal S1x1x1024 .f32) (v4 : Vec Ideal S1x1024x1024 .f32)
  (v6 : Vec Ideal S64x128 .bf16) (v12 : Vec Ideal S64x1 .f32) (v18 : Vec Ideal S32x64 .bf16)
  (v24 : Vec Ideal S32x1 .f32) (v32 : Vec Ideal S10x32 .f32) (v34 : Vec Ideal S1x10 .f32)

/-- Entry (h, j) of W1 · Xᵀ. -/
theorem proj1_apply (h : Fin 64) (j : Fin 1024) :
    proj1 (F := Ideal) v0 v6 (ix2 h j) = ∑ f : Fin 128, v6 (ix2 h f) * v0 (ix3 (0 : Fin 1) j f) := by
  unfold proj1
  refine (DotNT.matmul_zero_apply nt1 none _ _ h j).trans (Finset.sum_congr rfl fun f _ => ?_)
  rw [shapeCast_self, truncf_apply, DropUnit.dropUnit_apply]

/-- Entry (h, n) of the first layer. -/
theorem layer1_apply (h : Fin 64) (n : Fin 1024) :
    layer1 (F := Ideal) v0 v2 v4 v6 v12 (ix2 h n)
      = layerK (fun (h : Fin 64) (f : Fin 128) => v6 (ix2 h f)) (fun (h : Fin 64) => v12 (ix2 h (0 : Fin 1)))
          (fun (j : Fin 1024) (f : Fin 128) => v0 (ix3 (0 : Fin 1) j f))
          (fun (n j : Fin 1024) => v4 (ix3 (0 : Fin 1) n j)) (fun (n : Fin 1024) => v2 (ix3 (0 : Fin 1) (0 : Fin 1) n)) h n := by
  unfold layer1 layerK
  rw [mulf_apply, addf_apply, DotNT.matmul_zero_apply nt2 none _ _ h n, Column.broadcastTo_a1_ab_apply, shapeCast_self,
    broadcastTo_1b_ab_apply, DropUnit.dropUnit_apply]
  congr 2
  refine Finset.sum_congr rfl fun j _ => ?_
  rw [truncf_apply, proj1_apply, DropUnit.dropUnit_apply]

/-- Entry (k, n) of the second layer. -/
theorem layer2_apply (k : Fin 32) (n : Fin 1024) :
    layer2 (F := Ideal) v0 v2 v4 v6 v12 v18 v24 (ix2 k n)
      = layerK (fun (k : Fin 32) (h : Fin 64) => v18 (ix2 k h)) (fun (k : Fin 32) => v24 (ix2 k (0 : Fin 1)))
          (fun (j : Fin 1024) (h : Fin 64) =>
            layerK (fun (h : Fin 64) (f : Fin 128) => v6 (ix2 h f)) (fun (h : Fin 64) => v12 (ix2 h (0 : Fin 1)))
              (fun (j : Fin 1024) (f : Fin 128) => v0 (ix3 (0 : Fin 1) j f))
              (fun (n j : Fin 1024) => v4 (ix3 (0 : Fin 1) n j)) (fun (n : Fin 1024) => v2 (ix3 (0 : Fin 1) (0 : Fin 1) n)) h j)
          (fun (n j : Fin 1024) => v4 (ix3 (0 : Fin 1) n j)) (fun (n : Fin 1024) => v2 (ix3 (0 : Fin 1) (0 : Fin 1) n)) k n := by
  unfold layer2
  simp only [shapeCast_self]
  rw [layerK, mulf_apply, addf_apply, DotNT.matmul_zero_apply nt4 none _ _ k n, Column.broadcastTo_a1_ab_apply,
    broadcastTo_1b_ab_apply, DropUnit.dropUnit_apply]
  congr 2
  refine Finset.sum_congr rfl fun j _ => ?_
  rw [truncf_apply, PlainDot.matmul_zero_apply pl3 none _ _ k j, DropUnit.dropUnit_apply]
  congr 1
  refine Finset.sum_congr rfl fun h _ => ?_
  rw [truncf_apply, layer1_apply]

/-- Entry (0, o) of the head: the maxima over the nodes against row o of Wfc. -/
theorem head_apply (o : Fin 10) :
    head (F := Ideal) v0 v2 v4 v6 v12 v18 v24 v32 (ix2 (0 : Fin 1) o)
      = ∑ k : Fin 32, ((Finset.univ : Finset (Fin 1024)).fold max negInf fun n =>
          layer2 (F := Ideal) v0 v2 v4 v6 v12 v18 v24 (ix2 k n)) * v32 (ix2 o k) := by
  unfold head
  refine (DotTN.matmul_zero_apply tn5 none _ _ (0 : Fin 1) o).trans (Finset.sum_congr rfl fun k _ => ?_)
  rw [Column.shapeCast_a_a1_apply]
  exact congrArg (fun z : EReal => z * v32 (ix2 o k)) (AxisFold.row_max _ _ _ _ _ k)

/-- THE BODY AT AN ENTRY: entry (0, 0, o) of the stored block is the network, each layer projecting first, of the
    loaded blocks. -/
theorem stored_apply (o : Fin 10) :
    k0_pay1 (F := Ideal) (k0_pay2 v0 v2 v4 v6 v12 v18 v24 v32) v34 (ix3 (0 : Fin 1) (0 : Fin 1) o)
      = netK (fun (h : Fin 64) (f : Fin 128) => v6 (ix2 h f)) (fun (h : Fin 64) => v12 (ix2 h (0 : Fin 1)))
          (fun (k : Fin 32) (h : Fin 64) => v18 (ix2 k h)) (fun (k : Fin 32) => v24 (ix2 k (0 : Fin 1)))
          (fun (o : Fin 10) (k : Fin 32) => v32 (ix2 o k)) (fun (o : Fin 10) => v34 (ix2 (0 : Fin 1) o))
          (fun (j : Fin 1024) (f : Fin 128) => v0 (ix3 (0 : Fin 1) j f))
          (fun (n j : Fin 1024) => v4 (ix3 (0 : Fin 1) n j)) (fun (n : Fin 1024) => v2 (ix3 (0 : Fin 1) (0 : Fin 1) n)) negInf o := by
  rw [pay1_eq, pay2_eq, AddUnit.addUnit_apply, addf_apply, shapeCast_self, head_apply]
  unfold netK
  simp only [layer2_apply]

end Read

end Cert.KernelIdeal.Body

end
-- ==== Proof.Blocks.lean ====
/-
  From the body at one grid point to the kernel's result array.

  Grid point t works on graph t: its blocks of the features, the adjacency and the mask are rows t of those arrays,
  the weights, biases and last linear map are read whole at every point, and the 1×1×10 block it stores is row t of
  the 8×1×10 result. The host casts the weights to the narrow float format (the identity on the extended reals) and
  reshapes the biases to columns, the last bias to a row and the mask to [8, 1, 1024] before the call, so every block
  the body loads is read back as entries of the argument arrays. Hence what point t writes back is block t of ONE
  array, `outArr`: entry (b, 0, o) is the network on graph b, each layer projecting first. The eight blocks tile
  the result, so the array ends as `outArr`, and the reshape after the call reads it at (b, 0, o).
-/
import proofs.«179569_g65240553226756_cont_9to1_m_603_26_alg».proof.Proof.Gen.KernelIdeal.Frame
import proofs.«179569_g65240553226756_cont_9to1_m_603_26_alg».proof.Proof.Body
import proofs.«179569_g65240553226756_cont_9to1_m_603_26_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.StableHlo
open Cert.KernelIdeal Cert.KernelIdeal.Gen Cert.Gcn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The stored block, from the loaded blocks -/

/-- Entry (0, 0, o) of the block the body leaves is the network of the blocks it loads. -/
theorem out_apply (x0 : Vec Ideal S1x1024x128 .f32) (x1 : Vec Ideal S1x1024x1024 .f32) (x2 : Vec Ideal S1x1x1024 .f32)
    (x3 : Vec Ideal S64x128 .bf16) (x4 : Vec Ideal S64x1 .f32) (x5 : Vec Ideal S32x64 .bf16) (x6 : Vec Ideal S32x1 .f32)
    (x7 : Vec Ideal S10x32 .f32) (x8 : Vec Ideal S1x10 .f32) (o : Fin 10) :
    out0_9 (F := Ideal) x0 x1 x2 x3 x4 x5 x6 x7 x8 (ix3 (0 : Fin 1) (0 : Fin 1) o)
      = netK (fun (h : Fin 64) (f : Fin 128) => x3 (ix2 h f)) (fun (h : Fin 64) => x4 (ix2 h (0 : Fin 1)))
          (fun (k : Fin 32) (h : Fin 64) => x5 (ix2 k h)) (fun (k : Fin 32) => x6 (ix2 k (0 : Fin 1)))
          (fun (o : Fin 10) (k : Fin 32) => x7 (ix2 o k)) (fun (o : Fin 10) => x8 (ix2 (0 : Fin 1) o))
          (fun (j : Fin 1024) (f : Fin 128) => x0 (ix3 (0 : Fin 1) j f))
          (fun (n j : Fin 1024) => x1 (ix3 (0 : Fin 1) n j)) (fun (n : Fin 1024) => x2 (ix3 (0 : Fin 1) (0 : Fin 1) n)) negInf o := by
  unfold out0_9
  rw [View.canon_unit_zero (S := S1x1x10) hz3]
  simp only [View.ld_unit_zero (S := S1x1024x128) hz3, View.ld_unit_zero (S := S1x1x1024) hz3,
    View.ld_unit_zero (S := S1x1024x1024) hz3, View.ld_unit_zero (S := S64x128) hz2, View.ld_unit_zero (S := S64x1) hz2,
    View.ld_unit_zero (S := S32x64) hz2, View.ld_unit_zero (S := S32x1) hz2, View.ld_unit_zero (S := S10x32) hz2,
    View.ld_unit_zero (S := S1x10) hz2]
  exact Body.stored_apply x0 x2 x1 x3 x4 x5 x6 x7 x8 o

/-! ## The arrays the region finds, written by the host lines before it -/

/-- The narrow copy of W1 holds W1's entries. -/
theorem V_v0 (c : Dev nD) (i : S64x128.Idx) : V m c main_v0 i = m ((c : Thread nD τ).loc main_arg3) i := by
  show StableHlo.after hostOps0 (fun b => m (c, b)) (Proc.devRef .tc main_v0) i = _
  after_results
  rfl

/-- The narrow copy of W2 holds W2's entries. -/
theorem V_v1 (c : Dev nD) (i : S32x64.Idx) : V m c main_v1 i = m ((c : Thread nD τ).loc main_arg5) i := by
  show StableHlo.after hostOps0 (fun b => m (c, b)) (Proc.devRef .tc main_v1) i = _
  after_results
  rfl

/-- The first bias as a column. -/
theorem V_v2 (c : Dev nD) (h : Fin 64) : V m c main_v2 (ix2 h (0 : Fin 1)) = m ((c : Thread nD τ).loc main_arg4) (ix1 h) := by
  show StableHlo.after hostOps0 (fun b => m (c, b)) (Proc.devRef .tc main_v2) (ix2 h (0 : Fin 1)) = _
  after_results
  exact Column.shapeCast_a_a1_apply _ _ h 0

/-- The second bias as a column. -/
theorem V_v3 (c : Dev nD) (k : Fin 32) : V m c main_v3 (ix2 k (0 : Fin 1)) = m ((c : Thread nD τ).loc main_arg6) (ix1 k) := by
  show StableHlo.after hostOps0 (fun b => m (c, b)) (Proc.devRef .tc main_v3) (ix2 k (0 : Fin 1)) = _
  after_results
  exact Column.shapeCast_a_a1_apply _ _ k 0

/-- The last bias as a row. -/
theorem V_v4 (c : Dev nD) (o : Fin 10) : V m c main_v4 (ix2 (0 : Fin 1) o) = m ((c : Thread nD τ).loc main_arg8) (ix1 o) := by
  show StableHlo.after hostOps0 (fun b => m (c, b)) (Proc.devRef .tc main_v4) (ix2 (0 : Fin 1) o) = _
  after_results
  exact shapeCast_a_1a_apply _ _ 0 o

/-- The mask with a unit axis in the middle. -/
theorem V_v5 (c : Dev nD) (b : Fin 8) (n : Fin 1024) :
    V m c main_v5 (ix3 b (0 : Fin 1) n) = m ((c : Thread nD τ).loc main_arg2) (ix2 b n) := by
  show StableHlo.after hostOps0 (fun b => m (c, b)) (Proc.devRef .tc main_v5) (ix3 b (0 : Fin 1) n) = _
  after_results
  refine shapeCast_apply _ _ (ix3 b (0 : Fin 1) n) (ix2 b n) ?_
  rw [Shape.rowMajor_val_two, Shape.rowMajor_val_three]
  show b.val * 1024 + n.val = (b.val * 1 + (0 : Fin 1).val) * 1024 + n.val
  simp

/-! ## Which block each window is on at point t -/

/-- The grid point as a graph number. -/
def graph (t : Fin cfg0.N) : Fin 8 := ⟨t.val, by have h := t.isLt; have e : cfg0.N = 8 := N_0; omega⟩

theorem idx_in : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem idx_const : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem idx_out : ∀ t : Fin cfg0.N,
    win0_9.index t (0 : Fin 3) = t.val ∧ win0_9.index t (1 : Fin 3) = 0 ∧ win0_9.index t (2 : Fin 3) = 0 :=
  (by decide +kernel : ∀ t : Fin grid0.N, _)

/-- Every graph is some point's. -/
theorem idx_onto : ∀ b : Fin 8, ∃ t : Fin cfg0.N, t.val = b.val :=
  (by decide +kernel : ∀ b : Fin 8, ∃ t : Fin grid0.N, t.val = b.val)

/-! ## Each loaded block, as entries of the argument arrays -/

theorem blk0 (c : Dev nD) (t : Fin cfg0.N) (j : Fin 1024) (f : Fin 128) :
    iblk m c 0 t (ix3 (0 : Fin 1) j f) = m ((c : Thread nD τ).loc main_arg0) (ix3 (graph t) j f) := by
  show V m c main_arg0 (((cfg0.win 0).blk t).view.emb (ix3 (0 : Fin 1) j f)) = _
  rw [V_main_arg0]
  refine congrArg (m ((c : Thread nD τ).loc main_arg0)) (funext fun a => Fin.ext ?_)
  obtain ⟨e0, e1, e2, -⟩ := idx_in t
  match a with
  | ⟨0, _⟩ => show win0_0.index t (0 : Fin 3) * 1 + 1 * (0 : Fin 1).val = t.val; rw [e0]; simp
  | ⟨1, _⟩ => show win0_0.index t (1 : Fin 3) * 1024 + 1 * j.val = j.val; omega
  | ⟨2, _⟩ => show win0_0.index t (2 : Fin 3) * 128 + 1 * f.val = f.val; omega

theorem blk1 (c : Dev nD) (t : Fin cfg0.N) (n j : Fin 1024) :
    iblk m c 1 t (ix3 (0 : Fin 1) n j) = m ((c : Thread nD τ).loc main_arg1) (ix3 (graph t) n j) := by
  show V m c main_arg1 (((cfg0.win 1).blk t).view.emb (ix3 (0 : Fin 1) n j)) = _
  rw [V_main_arg1]
  refine congrArg (m ((c : Thread nD τ).loc main_arg1)) (funext fun a => Fin.ext ?_)
  obtain ⟨-, -, -, e0, e1, e2, -⟩ := idx_in t
  match a with
  | ⟨0, _⟩ => show win0_1.index t (0 : Fin 3) * 1 + 1 * (0 : Fin 1).val = t.val; rw [e0]; simp
  | ⟨1, _⟩ => show win0_1.index t (1 : Fin 3) * 1024 + 1 * n.val = n.val; omega
  | ⟨2, _⟩ => show win0_1.index t (2 : Fin 3) * 1024 + 1 * j.val = j.val; omega

theorem blk2 (c : Dev nD) (t : Fin cfg0.N) (n : Fin 1024) :
    iblk m c 2 t (ix3 (0 : Fin 1) (0 : Fin 1) n) = m ((c : Thread nD τ).loc main_arg2) (ix2 (graph t) n) := by
  show V m c main_v5 (((cfg0.win 2).blk t).view.emb (ix3 (0 : Fin 1) (0 : Fin 1) n)) = _
  have e : ((cfg0.win 2).blk t).view.emb (ix3 (0 : Fin 1) (0 : Fin 1) n) = ix3 (graph t) (0 : Fin 1) n := by
    funext a; apply Fin.ext
    obtain ⟨-, -, -, -, -, -, e0, e1, e2⟩ := idx_in t
    match a with
    | ⟨0, _⟩ => show win0_2.index t (0 : Fin 3) * 1 + 1 * (0 : Fin 1).val = t.val; rw [e0]; simp
    | ⟨1, _⟩ => show win0_2.index t (1 : Fin 3) * 1 + 1 * (0 : Fin 1).val = (0 : Fin 1).val; rw [e1]; simp
    | ⟨2, _⟩ => show win0_2.index t (2 : Fin 3) * 1024 + 1 * n.val = n.val; omega
  rw [e]
  exact V_v5 m c (graph t) n

theorem blk3 (c : Dev nD) (t : Fin cfg0.N) (h : Fin 64) (f : Fin 128) :
    iblk m c 3 t (ix2 h f) = m ((c : Thread nD τ).loc main_arg3) (ix2 h f) := by
  show V m c main_v0 (((cfg0.win 3).blk t).view.emb (ix2 h f)) = _
  have e : ((cfg0.win 3).blk t).view.emb (ix2 h f) = ix2 h f := by
    funext a; apply Fin.ext
    obtain ⟨e0, e1, -⟩ := idx_const t
    match a with
    | ⟨0, _⟩ => show win0_3.index t (0 : Fin 2) * 64 + 1 * h.val = h.val; omega
    | ⟨1, _⟩ => show win0_3.index t (1 : Fin 2) * 128 + 1 * f.val = f.val; omega
  rw [e]
  exact V_v0 m c (ix2 h f)

theorem blk4 (c : Dev nD) (t : Fin cfg0.N) (h : Fin 64) :
    iblk m c 4 t (ix2 h (0 : Fin 1)) = m ((c : Thread nD τ).loc main_arg4) (ix1 h) := by
  show V m c main_v2 (((cfg0.win 4).blk t).view.emb (ix2 h (0 : Fin 1))) = _
  have e : ((cfg0.win 4).blk t).view.emb (ix2 h (0 : Fin 1)) = ix2 h (0 : Fin 1) := by
    funext a; apply Fin.ext
    obtain ⟨-, -, e0, e1, -⟩ := idx_const t
    match a with
    | ⟨0, _⟩ => show win0_4.index t (0 : Fin 2) * 64 + 1 * h.val = h.val; omega
    | ⟨1, _⟩ => show win0_4.index t (1 : Fin 2) * 1 + 1 * (0 : Fin 1).val = (0 : Fin 1).val; rw [e1]; simp
  rw [e]
  exact V_v2 m c h

theorem blk5 (c : Dev nD) (t : Fin cfg0.N) (k : Fin 32) (h : Fin 64) :
    iblk m c 5 t (ix2 k h) = m ((c : Thread nD τ).loc main_arg5) (ix2 k h) := by
  show V m c main_v1 (((cfg0.win 5).blk t).view.emb (ix2 k h)) = _
  have e : ((cfg0.win 5).blk t).view.emb (ix2 k h) = ix2 k h := by
    funext a; apply Fin.ext
    obtain ⟨-, -, -, -, e0, e1, -⟩ := idx_const t
    match a with
    | ⟨0, _⟩ => show win0_5.index t (0 : Fin 2) * 32 + 1 * k.val = k.val; omega
    | ⟨1, _⟩ => show win0_5.index t (1 : Fin 2) * 64 + 1 * h.val = h.val; omega
  rw [e]
  exact V_v1 m c (ix2 k h)

theorem blk6 (c : Dev nD) (t : Fin cfg0.N) (k : Fin 32) :
    iblk m c 6 t (ix2 k (0 : Fin 1)) = m ((c : Thread nD τ).loc main_arg6) (ix1 k) := by
  show V m c main_v3 (((cfg0.win 6).blk t).view.emb (ix2 k (0 : Fin 1))) = _
  have e : ((cfg0.win 6).blk t).view.emb (ix2 k (0 : Fin 1)) = ix2 k (0 : Fin 1) := by
    funext a; apply Fin.ext
    obtain ⟨-, -, -, -, -, -, e0, e1, -⟩ := idx_const t
    match a with
    | ⟨0, _⟩ => show win0_6.index t (0 : Fin 2) * 32 + 1 * k.val = k.val; omega
    | ⟨1, _⟩ => show win0_6.index t (1 : Fin 2) * 1 + 1 * (0 : Fin 1).val = (0 : Fin 1).val; rw [e1]; simp
  rw [e]
  exact V_v3 m c k

theorem blk7 (c : Dev nD) (t : Fin cfg0.N) (o : Fin 10) (k : Fin 32) :
    iblk m c 7 t (ix2 o k) = m ((c : Thread nD τ).loc main_arg7) (ix2 o k) := by
  show V m c main_arg7 (((cfg0.win 7).blk t).view.emb (ix2 o k)) = _
  rw [V_main_arg7]
  refine congrArg (m ((c : Thread nD τ).loc main_arg7)) (funext fun a => Fin.ext ?_)
  obtain ⟨-, -, -, -, -, -, -, -, e0, e1, -⟩ := idx_const t
  match a with
  | ⟨0, _⟩ => show win0_7.index t (0 : Fin 2) * 10 + 1 * o.val = o.val; omega
  | ⟨1, _⟩ => show win0_7.index t (1 : Fin 2) * 32 + 1 * k.val = k.val; omega

theorem blk8 (c : Dev nD) (t : Fin cfg0.N) (o : Fin 10) :
    iblk m c 8 t (ix2 (0 : Fin 1) o) = m ((c : Thread nD τ).loc main_arg8) (ix1 o) := by
  show V m c main_v4 (((cfg0.win 8).blk t).view.emb (ix2 (0 : Fin 1) o)) = _
  have e : ((cfg0.win 8).blk t).view.emb (ix2 (0 : Fin 1) o) = ix2 (0 : Fin 1) o := by
    funext a; apply Fin.ext
    obtain ⟨-, -, -, -, -, -, -, -, -, -, e0, e1⟩ := idx_const t
    match a with
    | ⟨0, _⟩ => show win0_8.index t (0 : Fin 2) * 1 + 1 * (0 : Fin 1).val = (0 : Fin 1).val; rw [e0]; simp
    | ⟨1, _⟩ => show win0_8.index t (1 : Fin 2) * 10 + 1 * o.val = o.val; omega
  rw [e]
  exact V_v4 m c o

/-! ## The result array -/

/-- What the kernel's result array ends holding: entry (b, 0, o) is the network on graph b. -/
def outArr (c : Dev nD) : S8x1x10.Idx → EReal := fun i =>
  kerAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 2)

/-- WHAT POINT t WRITES BACK is block t of `outArr`. -/
theorem flushed_eq (c : Dev nD) (t : Fin cfg0.N) :
    (dats m 0 c).flushed 9 t = ((cfg0.win 9).blk t).view.read (Elt Ideal) (outArr m c) := by
  show (cfg0.win 9).cut (grid0.coords t) ((dats m 0 c).after 9 t) = _
  rw [after0_9]
  funext y
  have hy : y = ix3 (0 : Fin 1) (0 : Fin 1) (y 2 : Fin 10) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  rw [hy]
  refine (out_apply (iblk m c 0 t) (iblk m c 1 t) (iblk m c 2 t) (iblk m c 3 t) (iblk m c 4 t) (iblk m c 5 t)
    (iblk m c 6 t) (iblk m c 7 t) (iblk m c 8 t) (y 2)).trans ?_
  simp only [blk0, blk1, blk2, blk3, blk4, blk5, blk6, blk7, blk8]
  show _ = outArr m c (((cfg0.win 9).blk t).view.emb (ix3 (0 : Fin 1) (0 : Fin 1) (y 2 : Fin 10)))
  have e : ((cfg0.win 9).blk t).view.emb (ix3 (0 : Fin 1) (0 : Fin 1) (y 2 : Fin 10)) = ix3 (graph t) (0 : Fin 1) (y 2 : Fin 10) := by
    funext a; apply Fin.ext
    obtain ⟨e0, e1, e2⟩ := idx_out t
    match a with
    | ⟨0, _⟩ => show win0_9.index t (0 : Fin 3) * 1 + 1 * (0 : Fin 1).val = t.val; rw [e0]; simp
    | ⟨1, _⟩ => show win0_9.index t (1 : Fin 3) * 1 + 1 * (0 : Fin 1).val = (0 : Fin 1).val; rw [e1]; simp
    | ⟨2, _⟩ => show win0_9.index t (2 : Fin 3) * 10 + 1 * (y 2).val = (y 2).val; omega
  rw [e]
  rfl

/-- An index of the result is in point t's block iff each coordinate is in the block's range. -/
theorem mem_blk (t : Fin cfg0.N) (i : S8x1x10.Idx) :
    i ∈ ((cfg0.win 9).blk t).view.set ↔ ∀ a : Fin 3, win0_9.index t a * S1x1x10.size a ≤ (i a).val ∧ (i a).val < win0_9.index t a * S1x1x10.size a + S1x1x10.size a := by
  show i ∈ ((View.whole main_v6).slice (win0_9.rect t)).set ↔ _
  rw [View.set_slice_whole, Rect.mem_set_unit]
  exact Iff.rfl

/-- The eight blocks tile the result: row b is point b's. -/
theorem cover (i : S8x1x10.Idx) : ∃ t : Fin cfg0.N, (cfg0.win 9).flush t = true ∧ i ∈ ((cfg0.win 9).blk t).view.set := by
  obtain ⟨t, ht⟩ := idx_onto (i 0)
  refine ⟨t, flush0_9 t, ?_⟩
  rw [mem_blk]
  obtain ⟨e0, e1, e2⟩ := idx_out t
  have h0 : (i 0).val < 8 := (i 0).isLt
  have h1 : (i 1).val < 1 := (i 1).isLt
  have h2 : (i 2).val < 10 := (i 2).isLt
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 10 ≤ (i 2).val ∧ (i 2).val < win0_9.index t (2 : Fin 3) * 10 + 10; omega

/-- THE RESULT ARRAY after the region. -/
theorem final (c : Dev nD) : (dats m 0 c).arrAt 9 cfg0.N = outArr m c :=
  (dats m 0 c).arrAt_eq_of_cover 9 (outArr m c) (fun t _ => flushed_eq m c t) cover

/-- The reshape after the region reads the result array at (b, 0, o). -/
theorem tail_eq (c : Dev nD) (i : S8x10.Idx) :
    Pipeline.afterTail₀ cfgs (dats m) 0 (V0 m) [hostOps1] c main_v7 i
      = kerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (i 0) (i 1) := by
  unfold Pipeline.afterTail₀
  show StableHlo.after hostOps1 _ (Proc.devRef .tc main_v7) i = _
  after_results
  rw [(Pipeline.withArrays_arr spec0 launch0.win.arr_inj c _ _ 9).trans (final m c)]
  refine (shapeCast_apply _ _ i (ix3 (i 0) (0 : Fin 1) (i 1)) ?_).trans rfl
  rw [Shape.rowMajor_val_three, Shape.rowMajor_val_two]
  show ((i 0).val * 1 + (0 : Fin 1).val) * 10 + (i 1).val = (i 0).val * 10 + (i 1).val
  simp

/-! ## The kernel's run, read -/

/-- Every weakly fair execution of the kernel's program terminates with the result at the network, each layer
    projecting first, of the argument arrays, and the arguments unchanged. -/
theorem run : θ_run defs (onTc (τ := τ) (main (F := Ideal))) ⟨m, fun _ => 0, ρ⟩ fun r => ∀ c : Dev nD,
      r.2.mem ((c : Thread nD τ).loc main_v7) = (fun i : S8x10.Idx =>
        kerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    ⟨((h c).2 main_v7 (Pipeline.mem_restRefs_of main_v7 (by decide) (by decide))).trans (funext fun i => tail_eq m c i),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelIdeal.Blocks

end
-- ==== Proof.Reference.lean ====
/-
  The reference program computes the specification, entry by entry.

  The reference flattens the 8 graphs' 1024 nodes into 8192 rows (graph b, node n at row b * 1024 + n), aggregates each
  graph's rows by its adjacency matrix, projects, adds the bias and multiplies by the mask, twice; it then takes the
  maximum over each graph's nodes from minus infinity and applies the last linear map. Reading every operation at an
  index and undoing the row arithmetic of the reshapes, row b * 1024 + n of a layer's result is that layer of the
  specification (aggregating first) at graph b, node n, and so entry (b, o) of the result is the specification's.
-/
import proofs.«179569_g65240553226756_cont_9to1_m_603_26_alg».proof.Proof.Gen.ReferenceIdeal.Read
import proofs.«179569_g65240553226756_cont_9to1_m_603_26_alg».proof.Proof.Spec
import Idealize.ShloMosaic.Lib.ValueIdx
import Idealize.ShloMosaic.PureOps.Ideal.Laws

noncomputable section

open scoped BigOperators

namespace Cert.ReferenceIdeal.RefSpec

open Cert.ReferenceIdeal Cert.ReferenceIdeal.Gen Cert.ReferenceIdeal.Read Idealize.ShloMosaic Idealize.ShloMosaic.ValueIdx
  Cert.Gcn

/-- Node `n` of graph `b` among the 8 · 1024 flattened rows. -/
abbrev row (b : Fin 8) (n : Fin 1024) : Fin 8192 :=
  ⟨b.val * 1024 + n.val, by have hb := b.isLt; have hn := n.isLt; omega⟩

/-! ## The reshapes' row arithmetic, and the other composed index functions, at explicit coordinates -/

theorem idx_v0 (b : Fin 8) (j : Fin 1024) (f : Fin 128) : idx_main_v0 (ix2 (row b j) f) = ix3 b j f :=
  funext fun a => Fin.ext (by
    have hb := b.isLt; have hj := j.isLt; have hf := f.isLt
    match a with
    | ⟨0, _⟩ => show ((b.val * 1024 + j.val) * 128 + f.val) / 131072 = b.val; omega
    | ⟨1, _⟩ => show ((b.val * 1024 + j.val) * 128 + f.val) / 128 % 1024 = j.val; omega
    | ⟨2, _⟩ => show ((b.val * 1024 + j.val) * 128 + f.val) % 128 = f.val; omega)

theorem idx_v2 (b : Fin 8) (j : Fin 1024) (f : Fin 128) : idx_main_v2 (ix3 b j f) = ix2 (row b j) f :=
  funext fun a => Fin.ext (by
    have hb := b.isLt; have hj := j.isLt; have hf := f.isLt
    match a with
    | ⟨0, _⟩ => show ((b.val * 1024 + j.val) * 128 + f.val) / 128 = b.val * 1024 + j.val; omega
    | ⟨1, _⟩ => show ((b.val * 1024 + j.val) * 128 + f.val) % 128 = f.val; omega)

theorem lidx_v3 (b : Fin 8) (n : Fin 1024) (f : Fin 128) (j : Fin 1024) :
    lidx_main_v3 (ix3 b n f) j = ix3 b n j :=
  funext fun a => by match a with | ⟨0, _⟩ => rfl | ⟨1, _⟩ => rfl | ⟨2, _⟩ => rfl

theorem ridx_v3 (b : Fin 8) (n : Fin 1024) (f : Fin 128) (j : Fin 1024) :
    ridx_main_v3 (ix3 b n f) j = ix3 b j f :=
  funext fun a => by match a with | ⟨0, _⟩ => rfl | ⟨1, _⟩ => rfl | ⟨2, _⟩ => rfl

theorem idx_v4 (b : Fin 8) (n : Fin 1024) (f : Fin 128) : idx_main_v4 (ix2 (row b n) f) = ix3 b n f :=
  funext fun a => Fin.ext (by
    have hb := b.isLt; have hn := n.isLt; have hf := f.isLt
    match a with
    | ⟨0, _⟩ => show ((b.val * 1024 + n.val) * 128 + f.val) / 131072 = b.val; omega
    | ⟨1, _⟩ => show ((b.val * 1024 + n.val) * 128 + f.val) / 128 % 1024 = n.val; omega
    | ⟨2, _⟩ => show ((b.val * 1024 + n.val) * 128 + f.val) % 128 = f.val; omega)

theorem idx_v5 (f : Fin 128) (h : Fin 64) : idx_main_v5 (ix2 f h) = ix2 h f :=
  funext fun a => by match a with | ⟨0, _⟩ => rfl | ⟨1, _⟩ => rfl

theorem lidx_v6 (r : Fin 8192) (h : Fin 64) (f : Fin 128) : lidx_main_v6 (ix2 r h) f = ix2 r f :=
  funext fun a => by match a with | ⟨0, _⟩ => rfl | ⟨1, _⟩ => rfl

theorem ridx_v6 (r : Fin 8192) (h : Fin 64) (f : Fin 128) : ridx_main_v6 (ix2 r h) f = ix2 f h :=
  funext fun a => by match a with | ⟨0, _⟩ => rfl | ⟨1, _⟩ => rfl

theorem idx_v7_v8 (r : Fin 8192) (h : Fin 64) : idx_main_v7 (idx_main_v8 (ix2 r h)) = ix1 h :=
  funext fun a => by match a with | ⟨0, _⟩ => rfl

theorem idx_v1_v10 (b : Fin 8) (n : Fin 1024) (h : Fin 64) :
    idx_main_v1 (idx_main_v10 (ix2 (row b n) h)) = ix2 b n :=
  funext fun a => Fin.ext (by
    have hb := b.isLt; have hn := n.isLt
    match a with
    | ⟨0, _⟩ => show ((b.val * 1024 + n.val) * 1 + 0) / 1024 = b.val; omega
    | ⟨1, _⟩ => show ((b.val * 1024 + n.val) * 1 + 0) % 1024 = n.val; omega)

section
variable (x0 : (⟨S8x1024x128, .f32⟩ : BufTy).Contents (Elt Ideal)) (x1 : (⟨S8x1024x1024, .f32⟩ : BufTy).Contents (Elt Ideal))
  (x2 : (⟨S8x1024, .f32⟩ : BufTy).Contents (Elt Ideal)) (x3 : (⟨S64x128, .f32⟩ : BufTy).Contents (Elt Ideal))
  (x4 : (⟨S64, .f32⟩ : BufTy).Contents (Elt Ideal)) (x5 : (⟨S32x64, .f32⟩ : BufTy).Contents (Elt Ideal))
  (x6 : (⟨S32, .f32⟩ : BufTy).Contents (Elt Ideal)) (x7 : (⟨S10x32, .f32⟩ : BufTy).Contents (Elt Ideal))
  (x8 : (⟨S10, .f32⟩ : BufTy).Contents (Elt Ideal))

/-! ## The first layer -/

/-- Reshaping the features to rows and back changes nothing. -/
theorem v2_at (b : Fin 8) (j : Fin 1024) (f : Fin 128) :
    val_main_v2 (F := Ideal) x0 (ix3 b j f) = x0 (ix3 b j f) := by
  rw [val_main_v2_apply, idx_v2, val_main_v0_apply, idx_v0]

/-- The first aggregation: graph b's adjacency row n against feature column f. -/
theorem v3_at (b : Fin 8) (n : Fin 1024) (f : Fin 128) :
    val_main_v3 (F := Ideal) x0 x1 (ix3 b n f) = ∑ j : Fin 1024, x1 (ix3 b n j) * x0 (ix3 b j f) := by
  rw [val_main_v3_apply]
  refine Finset.sum_congr rfl fun j _ => ?_
  rw [lidx_v3, ridx_v3, v2_at]

/-- The same entry in the flattened rows. -/
theorem v4_at (b : Fin 8) (n : Fin 1024) (f : Fin 128) :
    val_main_v4 (F := Ideal) x0 x1 (ix2 (row b n) f) = ∑ j : Fin 1024, x1 (ix3 b n j) * x0 (ix3 b j f) := by
  rw [val_main_v4_apply, idx_v4, v3_at]

/-- The first projection of the aggregated features. -/
theorem v6_at (b : Fin 8) (n : Fin 1024) (h : Fin 64) :
    val_main_v6 (F := Ideal) x0 x1 x3 (ix2 (row b n) h)
      = ∑ f : Fin 128, (∑ j : Fin 1024, x1 (ix3 b n j) * x0 (ix3 b j f)) * x3 (ix2 h f) := by
  rw [val_main_v6_apply]
  refine Finset.sum_congr rfl fun f _ => ?_
  rw [lidx_v6, ridx_v6, v4_at, val_main_v5_apply, idx_v5]

/-- The first bias, broadcast over the rows. -/
theorem v8_at (r : Fin 8192) (h : Fin 64) : val_main_v8 (F := Ideal) x4 (ix2 r h) = x4 (ix1 h) := by
  rw [val_main_v8_apply, val_main_v7_apply, idx_v7_v8]

/-- The mask, broadcast over the first layer's features. -/
theorem v10_at (b : Fin 8) (n : Fin 1024) (h : Fin 64) :
    val_main_v10 (F := Ideal) x2 (ix2 (row b n) h) = x2 (ix2 b n) := by
  rw [val_main_v10_apply, val_main_v1_apply, idx_v1_v10]

/-- The first layer of graph `b`: entry (node, feature). -/
abbrev lay1 (b : Fin 8) : Fin 1024 → Fin 64 → EReal :=
  layerR (fun (h : Fin 64) (f : Fin 128) => x3 (ix2 h f)) (fun (h : Fin 64) => x4 (ix1 h))
    (fun (j : Fin 1024) (f : Fin 128) => x0 (ix3 b j f)) (fun (n j : Fin 1024) => x1 (ix3 b n j))
    (fun (n : Fin 1024) => x2 (ix2 b n))

/-- Row b * 1024 + n of the first masked layer is the specification's first layer of graph b at node n. -/
theorem v11_at (b : Fin 8) (n : Fin 1024) (h : Fin 64) :
    val_main_v11 (F := Ideal) x0 x1 x2 x3 x4 (ix2 (row b n) h) = lay1 x0 x1 x2 x3 x4 b n h := by
  rw [val_main_v11_apply, val_main_v9_apply, v6_at, v8_at, v10_at]
  rfl

/-! ## The second layer -/

theorem idx_v12 (b : Fin 8) (j : Fin 1024) (h : Fin 64) : idx_main_v12 (ix3 b j h) = ix2 (row b j) h :=
  funext fun a => Fin.ext (by
    have hb := b.isLt; have hj := j.isLt; have hh := h.isLt
    match a with
    | ⟨0, _⟩ => show ((b.val * 1024 + j.val) * 64 + h.val) / 64 = b.val * 1024 + j.val; omega
    | ⟨1, _⟩ => show ((b.val * 1024 + j.val) * 64 + h.val) % 64 = h.val; omega)

theorem lidx_v13 (b : Fin 8) (n : Fin 1024) (h : Fin 64) (j : Fin 1024) :
    lidx_main_v13 (ix3 b n h) j = ix3 b n j :=
  funext fun a => by match a with | ⟨0, _⟩ => rfl | ⟨1, _⟩ => rfl | ⟨2, _⟩ => rfl

theorem ridx_v13 (b : Fin 8) (n : Fin 1024) (h : Fin 64) (j : Fin 1024) :
    ridx_main_v13 (ix3 b n h) j = ix3 b j h :=
  funext fun a => by match a with | ⟨0, _⟩ => rfl | ⟨1, _⟩ => rfl | ⟨2, _⟩ => rfl

theorem idx_v14 (b : Fin 8) (n : Fin 1024) (h : Fin 64) : idx_main_v14 (ix2 (row b n) h) = ix3 b n h :=
  funext fun a => Fin.ext (by
    have hb := b.isLt; have hn := n.isLt; have hh := h.isLt
    match a with
    | ⟨0, _⟩ => show ((b.val * 1024 + n.val) * 64 + h.val) / 65536 = b.val; omega
    | ⟨1, _⟩ => show ((b.val * 1024 + n.val) * 64 + h.val) / 64 % 1024 = n.val; omega
    | ⟨2, _⟩ => show ((b.val * 1024 + n.val) * 64 + h.val) % 64 = h.val; omega)

theorem idx_v15 (h : Fin 64) (k : Fin 32) : idx_main_v15 (ix2 h k) = ix2 k h :=
  funext fun a => by match a with | ⟨0, _⟩ => rfl | ⟨1, _⟩ => rfl

theorem lidx_v16 (r : Fin 8192) (k : Fin 32) (h : Fin 64) : lidx_main_v16 (ix2 r k) h = ix2 r h :=
  funext fun a => by match a with | ⟨0, _⟩ => rfl | ⟨1, _⟩ => rfl

theorem ridx_v16 (r : Fin 8192) (k : Fin 32) (h : Fin 64) : ridx_main_v16 (ix2 r k) h = ix2 h k :=
  funext fun a => by match a with | ⟨0, _⟩ => rfl | ⟨1, _⟩ => rfl

theorem idx_v17_v18 (r : Fin 8192) (k : Fin 32) : idx_main_v17 (idx_main_v18 (ix2 r k)) = ix1 k :=
  funext fun a => by match a with | ⟨0, _⟩ => rfl

theorem idx_v1_v20 (b : Fin 8) (n : Fin 1024) (k : Fin 32) :
    idx_main_v1 (idx_main_v20 (ix2 (row b n) k)) = ix2 b n :=
  funext fun a => Fin.ext (by
    have hb := b.isLt; have hn := n.isLt
    match a with
    | ⟨0, _⟩ => show ((b.val * 1024 + n.val) * 1 + 0) / 1024 = b.val; omega
    | ⟨1, _⟩ => show ((b.val * 1024 + n.val) * 1 + 0) % 1024 = n.val; omega)

/-- The first layer, back in graph-by-node form. -/
theorem v12_at (b : Fin 8) (j : Fin 1024) (h : Fin 64) :
    val_main_v12 (F := Ideal) x0 x1 x2 x3 x4 (ix3 b j h) = lay1 x0 x1 x2 x3 x4 b j h := by
  rw [val_main_v12_apply, idx_v12, v11_at]

/-- The second aggregation: graph b's adjacency row n against the first layer's feature column h. -/
theorem v13_at (b : Fin 8) (n : Fin 1024) (h : Fin 64) :
    val_main_v13 (F := Ideal) x0 x1 x2 x3 x4 (ix3 b n h)
      = ∑ j : Fin 1024, x1 (ix3 b n j) * lay1 x0 x1 x2 x3 x4 b j h := by
  rw [val_main_v13_apply]
  refine Finset.sum_congr rfl fun j _ => ?_
  rw [lidx_v13, ridx_v13, v12_at]

/-- The same entry in the flattened rows. -/
theorem v14_at (b : Fin 8) (n : Fin 1024) (h : Fin 64) :
    val_main_v14 (F := Ideal) x0 x1 x2 x3 x4 (ix2 (row b n) h)
      = ∑ j : Fin 1024, x1 (ix3 b n j) * lay1 x0 x1 x2 x3 x4 b j h := by
  rw [val_main_v14_apply, idx_v14, v13_at]

/-- The second projection of the aggregated first layer. -/
theorem v16_at (b : Fin 8) (n : Fin 1024) (k : Fin 32) :
    val_main_v16 (F := Ideal) x0 x1 x2 x3 x4 x5 (ix2 (row b n) k)
      = ∑ h : Fin 64, (∑ j : Fin 1024, x1 (ix3 b n j) * lay1 x0 x1 x2 x3 x4 b j h) * x5 (ix2 k h) := by
  rw [val_main_v16_apply]
  refine Finset.sum_congr rfl fun h _ => ?_
  rw [lidx_v16, ridx_v16, v14_at, val_main_v15_apply, idx_v15]

/-- The second bias, broadcast over the rows. -/
theorem v18_at (r : Fin 8192) (k : Fin 32) : val_main_v18 (F := Ideal) x6 (ix2 r k) = x6 (ix1 k) := by
  rw [val_main_v18_apply, val_main_v17_apply, idx_v17_v18]

/-- The mask, broadcast over the second layer's features. -/
theorem v20_at (b : Fin 8) (n : Fin 1024) (k : Fin 32) :
    val_main_v20 (F := Ideal) x2 (ix2 (row b n) k) = x2 (ix2 b n) := by
  rw [val_main_v20_apply, val_main_v1_apply, idx_v1_v20]

/-- The second layer of graph `b`, over the first: entry (node, feature). -/
abbrev lay2 (b : Fin 8) : Fin 1024 → Fin 32 → EReal :=
  layerR (fun (k : Fin 32) (h : Fin 64) => x5 (ix2 k h)) (fun (k : Fin 32) => x6 (ix1 k))
    (fun (j : Fin 1024) (h : Fin 64) => lay1 x0 x1 x2 x3 x4 b j h) (fun (n j : Fin 1024) => x1 (ix3 b n j))
    (fun (n : Fin 1024) => x2 (ix2 b n))

/-- Row b * 1024 + n of the second masked layer is the specification's second layer of graph b at node n. -/
theorem v21_at (b : Fin 8) (n : Fin 1024) (k : Fin 32) :
    val_main_v21 (F := Ideal) x0 x1 x2 x3 x4 x5 x6 (ix2 (row b n) k) = lay2 x0 x1 x2 x3 x4 x5 x6 b n k := by
  rw [val_main_v21_apply, val_main_v19_apply, v16_at, v18_at, v20_at]
  rfl

/-! ## The maximum over the nodes -/

theorem idx_v22 (b : Fin 8) (n : Fin 1024) (k : Fin 32) : idx_main_v22 (ix3 b n k) = ix2 (row b n) k :=
  funext fun a => Fin.ext (by
    have hb := b.isLt; have hn := n.isLt; have hk := k.isLt
    match a with
    | ⟨0, _⟩ => show ((b.val * 1024 + n.val) * 32 + k.val) / 32 = b.val * 1024 + n.val; omega
    | ⟨1, _⟩ => show ((b.val * 1024 + n.val) * 32 + k.val) % 32 = k.val; omega)

/-- The second layer, back in graph-by-node form. -/
theorem v22_at (b : Fin 8) (n : Fin 1024) (k : Fin 32) :
    val_main_v22 (F := Ideal) x0 x1 x2 x3 x4 x5 x6 (ix3 b n k) = lay2 x0 x1 x2 x3 x4 x5 x6 b n k := by
  rw [val_main_v22_apply, idx_v22, v21_at]

/-- The node axis is the one reduced. -/
theorem reduces_nodes : S8x1024x32.Reduces [1] S8x32 := by decide

/-- Entry (b, k) of the reduced array with node n put back is entry (b, n, k). -/
theorem lift_nodes (b : Fin 8) (k : Fin 32) (n : Fin (S8x1024x32.size 1)) :
    reduces_nodes.lift (ix2 b k) n = ix3 b (⟨n.val, n.isLt⟩ : Fin 1024) k := by
  funext c; apply Fin.ext
  fin_cases c <;> rfl

/-- Entry (b, k) of the reduction is the maximum, from minus infinity, over graph b's nodes of the second layer. -/
theorem v23_at (b : Fin 8) (k : Fin 32) :
    val_main_v23 (F := Ideal) x0 x1 x2 x3 x4 x5 x6 (ix2 b k)
      = (Finset.univ : Finset (Fin 1024)).fold max negInf fun n => lay2 x0 x1 x2 x3 x4 x5 x6 b n k := by
  unfold val_main_v23
  rw [Host.reduce_eq_fold_single FloatOps.maximumf _ _ reducesTo_S8x1024x32_S8x32_d1 reduces_nodes h_S_]
  have hf : (val_main_v22 (F := Ideal) x0 x1 x2 x3 x4 x5 x6 ∘ reduces_nodes.lift (ix2 b k))
      = fun n : Fin 1024 => lay2 x0 x1 x2 x3 x4 x5 x6 b n k :=
    funext fun n => by
      show val_main_v22 (F := Ideal) x0 x1 x2 x3 x4 x5 x6 (reduces_nodes.lift (ix2 b k) n) = _
      rw [lift_nodes, v22_at]
      rfl
  exact congrArg (fun f => Finset.fold max negInf f (Finset.univ : Finset (Fin 1024))) hf

/-! ## The last linear map -/

theorem lidx_v25 (b : Fin 8) (o : Fin 10) (k : Fin 32) : lidx_main_v25 (ix2 b o) k = ix2 b k :=
  funext fun a => by match a with | ⟨0, _⟩ => rfl | ⟨1, _⟩ => rfl

theorem ridx_v25 (b : Fin 8) (o : Fin 10) (k : Fin 32) : ridx_main_v25 (ix2 b o) k = ix2 k o :=
  funext fun a => by match a with | ⟨0, _⟩ => rfl | ⟨1, _⟩ => rfl

theorem idx_v24 (k : Fin 32) (o : Fin 10) : idx_main_v24 (ix2 k o) = ix2 o k :=
  funext fun a => by match a with | ⟨0, _⟩ => rfl | ⟨1, _⟩ => rfl

theorem idx_v26_v27 (b : Fin 8) (o : Fin 10) : idx_main_v26 (idx_main_v27 (ix2 b o)) = ix1 o :=
  funext fun a => by match a with | ⟨0, _⟩ => rfl

/-- The last linear map of graph b's maxima, before its bias. -/
theorem v25_at (b : Fin 8) (o : Fin 10) :
    val_main_v25 (F := Ideal) x0 x1 x2 x3 x4 x5 x6 x7 (ix2 b o)
      = ∑ k : Fin 32, ((Finset.univ : Finset (Fin 1024)).fold max negInf fun n => lay2 x0 x1 x2 x3 x4 x5 x6 b n k)
          * x7 (ix2 o k) := by
  rw [val_main_v25_apply]
  refine Finset.sum_congr rfl fun k _ => ?_
  rw [lidx_v25, ridx_v25, v23_at, val_main_v24_apply, idx_v24]

/-- The last bias, broadcast over the graphs. -/
theorem v27_at (b : Fin 8) (o : Fin 10) : val_main_v27 (F := Ideal) x8 (ix2 b o) = x8 (ix1 o) := by
  rw [val_main_v27_apply, val_main_v26_apply, idx_v26_v27]

/-- Entry (b, o) of the reference's result is the specification's, term for term. -/
theorem v28_at (b : Fin 8) (o : Fin 10) :
    val_main_v28 (F := Ideal) x0 x1 x2 x3 x4 x5 x6 x7 x8 (ix2 b o) = refAt x0 x1 x2 x3 x4 x5 x6 x7 x8 b o := by
  rw [val_main_v28_apply, v25_at, v27_at]
  rfl

end

/-- THE REFERENCE IS THE SPECIFICATION: the reference program's result array is `spec` of its nine arguments. -/
theorem ref_eq_spec (x0 : (⟨S8x1024x128, .f32⟩ : BufTy).Contents (Elt Ideal)) (x1 : (⟨S8x1024x1024, .f32⟩ : BufTy).Contents (Elt Ideal)) (x2 : (⟨S8x1024, .f32⟩ : BufTy).Contents (Elt Ideal)) (x3 : (⟨S64x128, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) (x7 : (⟨S10x32, .f32⟩ : BufTy).Contents (Elt Ideal)) (x8 : (⟨S10, .f32⟩ : BufTy).Contents (Elt Ideal)) :
    Cert.ReferenceIdeal.Read.val_main_v28 (F := Ideal) x0 x1 x2 x3 x4 x5 x6 x7 x8 = Cert.Gcn.spec x0 x1 x2 x3 x4 x5 x6 x7 x8 := by
  funext i
  obtain ⟨b, o, rfl⟩ : ∃ (b : Fin 8) (o : Fin 10), i = ix2 b o := ⟨i 0, i 1, eq_ix2 i⟩
  exact v28_at x0 x1 x2 x3 x4 x5 x6 x7 x8 b o

end Cert.ReferenceIdeal.RefSpec

end
-- ==== Proof.lean ====
/-
  A fused two-layer graph convolution against its plain reference, on the extended reals.

  For each of 8 graphs with 1024 nodes the network is: aggregate the node features by the adjacency matrix and map them
  linearly (128 → 64, then 64 → 32), add a bias and multiply by the node mask after each layer, take the maximum over
  the nodes and apply a last linear map (32 → 10). The reference aggregates first and projects after; the kernel
  projects first and aggregates after, features-major, one graph per grid point. The two orders are the double sum
  Σ_j Σ_f W[h,f]·X[j,f]·A[n,j] taken in its two orders, equal when the entries are real numbers — which is what the
  precondition gives (on the extended reals a product does not distribute over a sum holding both infinities). The
  changes of float format in the kernel are the identity here, the maxima are the same fold of max from minus
  infinity, and the last linear map is the same sum on both sides.

  The kernel's result array is read off its generated frame run (each grid point's stored block is a block of one
  array, the eight blocks tile it, the reshape after the call re-indexes it); the reference's result is its generated
  run, read one operation at a time. Both are compared with one specification of the nine argument arrays.
-/
import proofs.«179569_g65240553226756_cont_9to1_m_603_26_alg».proof.Defs
import proofs.«179569_g65240553226756_cont_9to1_m_603_26_alg».proof.Proof.Gen.Kernel
import proofs.«179569_g65240553226756_cont_9to1_m_603_26_alg».proof.Proof.Gen.Kernel.Skeleton
import proofs.«179569_g65240553226756_cont_9to1_m_603_26_alg».proof.Proof.Gen.Kernel.Launch
import proofs.«179569_g65240553226756_cont_9to1_m_603_26_alg».proof.Proof.Gen.Kernel.Points
import proofs.«179569_g65240553226756_cont_9to1_m_603_26_alg».proof.Proof.Gen.Kernel.Frame
import proofs.«179569_g65240553226756_cont_9to1_m_603_26_alg».proof.Proof.Gen.KernelIdeal
import proofs.«179569_g65240553226756_cont_9to1_m_603_26_alg».proof.Proof.Gen.KernelIdeal.Skeleton
import proofs.«179569_g65240553226756_cont_9to1_m_603_26_alg».proof.Proof.Gen.KernelIdeal.Launch
import proofs.«179569_g65240553226756_cont_9to1_m_603_26_alg».proof.Proof.Gen.KernelIdeal.Points
import proofs.«179569_g65240553226756_cont_9to1_m_603_26_alg».proof.Proof.Gen.KernelIdeal.Frame
import proofs.«179569_g65240553226756_cont_9to1_m_603_26_alg».proof.Proof.Gen.ReferenceIdeal
import proofs.«179569_g65240553226756_cont_9to1_m_603_26_alg».proof.Proof.Gen.ReferenceIdeal.Run
import proofs.«179569_g65240553226756_cont_9to1_m_603_26_alg».proof.Proof.Gen.ReferenceIdeal.Read
import proofs.«179569_g65240553226756_cont_9to1_m_603_26_alg».proof.Proof.Gen.Pre_finite_inputs
import proofs.«179569_g65240553226756_cont_9to1_m_603_26_alg».proof.Proof.Spec
import proofs.«179569_g65240553226756_cont_9to1_m_603_26_alg».proof.Proof.Finite
import proofs.«179569_g65240553226756_cont_9to1_m_603_26_alg».proof.Proof.Blocks
import proofs.«179569_g65240553226756_cont_9to1_m_603_26_alg».proof.Proof.Reference
import Idealize.ShloMosaic.Adequacy
import Idealize.ShloMosaic.Init

noncomputable section

namespace Cert.Proof

open Idealize.ShloMosaic Idealize.SL.Sem

/-- The word-level kernel runs and keeps its arguments: its generated frame. -/
theorem frame_k : Cert.frame_Kernel := fun m ρ _ => Cert.Kernel.Gen.frame m ρ

/-- The idealized kernel runs and keeps its arguments: its generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the same [8, 10] array: the kernel at the network
    with each layer projecting first, the reference at the network with each layer aggregating first, equal because
    the precondition makes every entry the exchange law reads a real number. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨r0, r1, r2, r3, r4, r5⟩ := Cert.Gcn.Finite.reals _ _ _ _ _ _ _ _ _ (hpre c)
  rw [a0, a1, a2, a3, a4, a5, a6, a7, a8, Cert.ReferenceIdeal.Read.val_main_v28_eq,
    Cert.ReferenceIdeal.RefSpec.ref_eq_spec]
  funext i
  exact (Cert.Gcn.kerAt_eq_refAt _ _ _ _ _ _ _ _ _ r0 r1 r2 r3 r4 r5 (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
